-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x337 : Shape := ⟨3, ![512, 128, 337]⟩
abbrev S300x337 : Shape := ⟨2, ![300, 337]⟩
abbrev S300 : Shape := ⟨1, ![300]⟩
abbrev S300x600 : Shape := ⟨2, ![300, 600]⟩
abbrev S1x300 : Shape := ⟨2, ![1, 300]⟩
abbrev S1 : Shape := ⟨1, ![1]⟩
abbrev S_ : Shape := ⟨0, ![]⟩

class Facts : Prop where
  bcast_S_S512x128x337 : S_.BroadcastsInDim S512x128x337 (![] : Fin 0 → Fin S512x128x337.rank)
  reducesTo_S512x128x337_S_d0_1_2 : S512x128x337.ReducesTo [0, 1, 2] S_
  h_S_ : 0 < S_.numel
  bcast_S_S300x337 : S_.BroadcastsInDim S300x337 (![] : Fin 0 → Fin S300x337.rank)
  reducesTo_S300x337_S_d0_1 : S300x337.ReducesTo [0, 1] S_
  bcast_S_S300 : S_.BroadcastsInDim S300 (![] : Fin 0 → Fin S300.rank)
  reducesTo_S300_S_d0 : S300.ReducesTo [0] S_
  bcast_S_S300x600 : S_.BroadcastsInDim S300x600 (![] : Fin 0 → Fin S300x600.rank)
  reducesTo_S300x600_S_d0_1 : S300x600.ReducesTo [0, 1] S_
  bcast_S_S1x300 : S_.BroadcastsInDim S1x300 (![] : Fin 0 → Fin S1x300.rank)
  reducesTo_S1x300_S_d0_1 : S1x300.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S300x600 .f32) (main_arg5 : FVec F S300 .f32) (main_arg6 : FVec F S1x300 .f32) (main_arg7 : FVec F S1 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300x600 .f32 := Host.absf main_arg4
  let main_cst_6 : FVec F S_ .f32 := constant S_ .f32 0x7F800000#32
  let main_v20 : FVec F S300x600 .f32 := broadcastInDim S300x600 ![] bcast_S_S300x600 main_cst_6
  let main_v21 : IVec S300x600 1 := cmpf .olt main_v19 main_v20
  let main_c_7 : IVec S_ 1 := constantI S_ 1 1#1
  let main_v22 : IVec S_ 1 := (fun x v => Host.reduce IntOp.andi x v reducesTo_S300x600_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : FVec F S1x300 .f32 := Host.absf main_arg6
  let main_cst_10 : FVec F S_ .f32 := constant S_ .f32 0x7F800000#32
  let main_v30 : FVec F S1x300 .f32 := broadcastInDim S1x300 ![] bcast_S_S1x300 main_cst_10
  let main_v31 : IVec S1x300 1 := cmpf .olt main_v29 main_v30
  let main_c_11 : IVec S_ 1 := constantI S_ 1 1#1
  let main_v32 : IVec S_ 1 := (fun x v => Host.reduce IntOp.andi x v reducesTo_S1x300_S_d0_1 h_S_) main_v31 main_c_11
  let main_v33 : IVec S_ 1 := andi main_v28 main_v32
  fn_part2 (F := F) main_arg7 main_v33

def fn {F : FTy → Type} [FloatOps F] (main_arg0 : FVec F S512x128x337 .f32) (main_arg1 : FVec F S512x128x337 .f32) (main_arg2 : FVec F S300x337 .f32) (main_arg3 : FVec F S300 .f32) (main_arg4 : FVec F S300x600 .f32) (main_arg5 : FVec F S300 .f32) (main_arg6 : FVec F S1x300 .f32) (main_arg7 : FVec F S1 .f32) : IVec S_ 1 :=
  let main_v0 : FVec F S512x128x337 .f32 := Host.absf main_arg0
  let main_cst : FVec F S_ .f32 := constant S_ .f32 0x7F800000#32
  let main_v1 : FVec F S512x128x337 .f32 := broadcastInDim S512x128x337 ![] bcast_S_S512x128x337 main_cst
  let main_v2 : IVec S512x128x337 1 := cmpf .olt main_v0 main_v1
  let main_c : IVec S_ 1 := constantI S_ 1 1#1
  let main_v3 : IVec S_ 1 := (fun x v => Host.reduce IntOp.andi x v reducesTo_S512x128x337_S_d0_1_2 h_S_) main_v2 main_c
  let main_v4 : FVec F S512x128x337 .f32 := Host.absf main_arg1
  let main_cst_0 : FVec F S_ .f32 := constant S_ .f32 0x7F800000#32
  let main_v5 : FVec F S512x128x337 .f32 := broadcastInDim S512x128x337 ![] bcast_S_S512x128x337 main_cst_0
  let main_v6 : IVec S512x128x337 1 := cmpf .olt main_v4 main_v5
  let main_c_1 : IVec S_ 1 := constantI S_ 1 1#1
  let main_v7 : IVec S_ 1 := (fun x v => Host.reduce IntOp.andi x v reducesTo_S512x128x337_S_d0_1_2 h_S_) main_v6 main_c_1
  let main_v8 : IVec S_ 1 := andi main_v3 main_v7
  let main_v9 : FVec F S300x337 .f32 := Host.absf main_arg2
  let main_cst_2 : FVec F S_ .f32 := constant S_ .f32 0x7F800000#32
  let main_v10 : FVec F S300x337 .f32 := broadcastInDim S300x337 ![] bcast_S_S300x337 main_cst_2
  let main_v11 : IVec S300x337 1 := cmpf .olt main_v9 main_v10
  let main_c_3 : IVec S_ 1 := constantI S_ 1 1#1
  let main_v12 : IVec S_ 1 := (fun x v => Host.reduce IntOp.andi x v reducesTo_S300x337_S_d0_1 h_S_) main_v11 main_c_3
  let main_v13 : IVec S_ 1 := andi main_v8 main_v12
  let main_v14 : FVec F S300 .f32 := Host.absf main_arg3
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg4 main_arg5 main_arg6 main_arg7 main_v13 main_v16
-- ==== Kernel.lean ====
abbrev S512x128x337 : Shape := ⟨3, ![512, 128, 337]⟩
abbrev S300x337 : Shape := ⟨2, ![300, 337]⟩
abbrev S300 : Shape := ⟨1, ![300]⟩
abbrev S300x600 : Shape := ⟨2, ![300, 600]⟩
abbrev S1x300 : Shape := ⟨2, ![1, 300]⟩
abbrev S1 : Shape := ⟨1, ![1]⟩
abbrev S337x300 : Shape := ⟨2, ![337, 300]⟩
abbrev S300x300 : Shape := ⟨2, ![300, 300]⟩
abbrev S300x1 : Shape := ⟨2, ![300, 1]⟩
abbrev S512x1 : Shape := ⟨2, ![512, 1]⟩
abbrev S32x128x337 : Shape := ⟨3, ![32, 128, 337]⟩
abbrev S32x1 : Shape := ⟨2, ![32, 1]⟩
abbrev S8x128x337 : Shape := ⟨3, ![8, 128, 337]⟩
abbrev S1024x337 : Shape := ⟨2, ![1024, 337]⟩
abbrev S1024x300 : Shape := ⟨2, ![1024, 300]⟩
abbrev S8x128x300 : Shape := ⟨3, ![8, 128, 300]⟩
abbrev S8x300 : Shape := ⟨2, ![8, 300]⟩
abbrev S32x300 : Shape := ⟨2, ![32, 300]⟩
abbrev S1x1 : Shape := ⟨2, ![1, 1]⟩

abbrev nBuf : Space → Nat
  | .hbm => 19
  | .vmem => 13
  | .smem => 0
  | _ => 0

abbrev bufTy : (tb : Table) → Fin (tcTables nBuf tb) → BufTy
  | .hbm, ⟨0, _⟩ => ⟨S512x128x337, .f32⟩
  | .hbm, ⟨1, _⟩ => ⟨S512x128x337, .f32⟩
  | .hbm, ⟨2, _⟩ => ⟨S300x337, .f32⟩
  | .hbm, ⟨3, _⟩ => ⟨S300, .f32⟩
  | .hbm, ⟨4, _⟩ => ⟨S300x600, .f32⟩
  | .hbm, ⟨5, _⟩ => ⟨S300, .f32⟩
  | .hbm, ⟨6, _⟩ => ⟨S1x300, .f32⟩
  | .hbm, ⟨7, _⟩ => ⟨S1, .f32⟩
  | .hbm, ⟨8, _⟩ => ⟨S337x300, .f32⟩
  | .hbm, ⟨9, _⟩ => ⟨S337x300, .bf16⟩
  | .hbm, ⟨10, _⟩ => ⟨S300x300, .f32⟩
  | .hbm, ⟨11, _⟩ => ⟨S300x300, .f32⟩
  | .hbm, ⟨12, _⟩ => ⟨S300x300, .bf16⟩
  | .hbm, ⟨13, _⟩ => ⟨S300x300, .f32⟩
  | .hbm, ⟨14, _⟩ => ⟨S300x300, .f32⟩
  | .hbm, ⟨15, _⟩ => ⟨S300x300, .bf16⟩
  | .hbm, ⟨16, _⟩ => ⟨S300x1, .f32⟩
  | .hbm, ⟨17, _⟩ => ⟨S300x1, .bf16⟩
  | .hbm, ⟨18, _⟩ => ⟨S512x1, .f32⟩
  | .local _ .vmem, ⟨0, _⟩ => ⟨S32x128x337, .f32⟩
  | .local _ .vmem, ⟨1, _⟩ => ⟨S32x128x337, .f32⟩
  | .local _ .vmem, ⟨2, _⟩ => ⟨S32x128x337, .f32⟩
  | .local _ .vmem, ⟨3, _⟩ => ⟨S32x128x337, .f32⟩
  | .local _ .vmem, ⟨4, _⟩ => ⟨S337x300, .bf16⟩
  | .local _ .vmem, ⟨5, _⟩ => ⟨S300, .f32⟩
  | .local _ .vmem, ⟨6, _⟩ => ⟨S300x300, .bf16⟩
  | .local _ .vmem, ⟨7, _⟩ => ⟨S300x300, .bf16⟩
  | .local _ .vmem, ⟨8, _⟩ => ⟨S300, .f32⟩
  | .local _ .vmem, ⟨9, _⟩ => ⟨S300x1, .bf16⟩
  | .local _ .vmem, ⟨10, _⟩ => ⟨S1, .f32⟩
  | .local _ .vmem, ⟨11, _⟩ => ⟨S32x1, .f32⟩
  | .local _ .vmem, ⟨12, _⟩ => ⟨S32x1, .f32⟩
  | _, _ => ⟨S512x128x337, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128x337 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x337 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S337x300 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S300x300 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x300 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S300 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S300x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S300x337_S337x300_1_0 : S300x337.Transposes [1, 0] S337x300
  bitsLt_bf16_f32 : FTy.bits .bf16 < FTy.bits .f32
  slices_S300x600_S300x300_0_0 : S300x600.Slices ![0, 0] S300x300
  transposes_S300x300_S300x300_1_0 : S300x300.Transposes [1, 0] S300x300
  slices_S300x600_S300x300_0_300 : S300x600.Slices ![0, 300] S300x300
  transposes_S1x300_S300x1_1_0 : S1x300.Transposes [1, 0] S300x1
  inb_S337x300_S337x300_0_0 : ∀ a, (![0, 0] : Fin 2 → Nat) a + S337x300.size a ≤ S337x300.size a
  h_S337x300 : 0 < S337x300.numel
  shapeCasts_S337x300_S337x300 : S337x300.ShapeCasts S337x300
  inb_S300_S300_0 : ∀ a, (![0] : Fin 1 → Nat) a + S300.size a ≤ S300.size a
  h_S300 : 0 < S300.numel
  shapeCasts_S300_S1x300 : S300.ShapeCasts S1x300
  inb_S32x128x337_S8x128x337_0_0_0 : ∀ a, (![0, 0, 0] : Fin 3 → Nat) a + S8x128x337.size a ≤ S32x128x337.size a
  h_S8x128x337 : 0 < S8x128x337.numel
  shapeCasts_S8x128x337_S1024x337 : S8x128x337.ShapeCasts S1024x337
  broadcasts_S1x300_S1024x300 : S1x300.Broadcasts S1024x300
  shapeCasts_S1024x300_S8x128x300 : S1024x300.ShapeCasts S8x128x300
  reduces_S8x128x300_S8x300 : S8x128x300.Reduces [1] S8x300
  inb_S32x128x337_S8x128x337_8_0_0 : ∀ a, (![8, 0, 0] : Fin 3 → Nat) a + S8x128x337.size a ≤ S32x128x337.size a
  inb_S32x128x337_S8x128x337_16_0_0 : ∀ a, (![16, 0, 0] : Fin 3 → Nat) a + S8x128x337.size a ≤ S32x128x337.size a
  inb_S32x128x337_S8x128x337_24_0_0 : ∀ a, (![24, 0, 0] : Fin 3 → Nat) a + S8x128x337.size a ≤ S32x128x337.size a
  concatenates_S8x300_S8x300_S8x300_S8x300_S32x300_d0 : Shape.Concatenates [S8x300, S8x300, S8x300, S8x300] S32x300 0
  inb_S300x300_S300x300_0_0 : ∀ a, (![0, 0] : Fin 2 → Nat) a + S300x300.size a ≤ S300x300.size a
  h_S300x300 : 0 < S300x300.numel
  shapeCasts_S300x300_S300x300 : S300x300.ShapeCasts S300x300
  broadcasts_S1x300_S32x300 : S1x300.Broadcasts S32x300
  inb_S300x1_S300x1_0_0 : ∀ a, (![0, 0] : Fin 2 → Nat) a + S300x1.size a ≤ S300x1.size a
  h_S300x1 : 0 < S300x1.numel
  shapeCasts_S300x1_S300x1 : S300x1.ShapeCasts S300x1
  inb_S1_S1_0 : ∀ a, (![0] : Fin 1 → Nat) a + S1.size a ≤ S1.size a
  h_S1 : 0 < S1.numel
  shapeCasts_S1_S1x1 : S1.ShapeCasts S1x1
  broadcasts_S1x1_S32x1 : S1x1.Broadcasts S32x1
  inb_S32x1_S32x1_0_0 : ∀ a, (![0, 0] : Fin 2 → Nat) a + S32x1.size a ≤ S32x1.size a
  h_S32x1 : 0 < S32x1.numel
  dot_S1024x337_S337x300_S1024x300_1_0_0_1_n_n_wf : DotDims.WF S1024x337 S337x300 S1024x300 [1] [0] [0] [1] [] []
  dot_S32x300_S300x300_S32x300_1_0_0_1_n_n_wf : DotDims.WF S32x300 S300x300 S32x300 [1] [0] [0] [1] [] []
  dot_S32x300_S300x1_S32x1_1_0_0_1_n_n_wf : DotDims.WF S32x300 S300x1 S32x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x337.size a ≤ S512x128x337.size a
  hwx0_0 : ∀ i : grid0.Coords, EltTy.bits .f32 = 32 ∨ (Rect.block (s := S512x128x337) S32x128x337.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x337.size a ≤ S512x128x337.size a
  hwx0_1 : ∀ i : grid0.Coords, EltTy.bits .f32 = 32 ∨ (Rect.block (s := S512x128x337) S32x128x337.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S337x300.size a ≤ S337x300.size a
  hwx0_2 : ∀ i : grid0.Coords, EltTy.bits .bf16 = 32 ∨ (Rect.block (s := S337x300) S337x300.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300.size a ≤ S300.size a
  hwx0_3 : ∀ i : grid0.Coords, EltTy.bits .f32 = 32 ∨ (Rect.block (s := S300) S300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S300x300.size a ≤ S300x300.size a
  hwx0_4 : ∀ i : grid0.Coords, EltTy.bits .bf16 = 32 ∨ (Rect.block (s := S300x300) S300x300.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300x300.size a ≤ S300x300.size a
  hwx0_5 : ∀ i : grid0.Coords, EltTy.bits .bf16 = 32 ∨ (Rect.block (s := S300x300) S300x300.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S300.size a ≤ S300.size a
  hwx0_6 : ∀ i : grid0.Coords, EltTy.bits .f32 = 32 ∨ (Rect.block (s := S300) S300.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S300x1.size a ≤ S300x1.size a
  hwx0_7 : ∀ i : grid0.Coords, EltTy.bits .bf16 = 32 ∨ (Rect.block (s := S300x1) S300x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x1.size a ≤ S512x1.size a
  hwx0_9 : ∀ i : grid0.Coords, EltTy.bits .f32 = 32 ∨ (Rect.block (s := S512x1) S32x1.size (cc0_transform_9 i) (hinb0_9 i)).WholeWords (EltTy.packing .f32)

variable [Facts₀]

def dot_S1024x337_S337x300_S1024x300_1_0_0_1_n_n : DotDims S1024x337 S337x300 S1024x300 where
  lhsContracting := [1]
  rhsContracting := [0]
  lhsNonContracting := [0]
  rhsNonContracting := [1]
  lhsBatch := []
  rhsBatch := []
  wf := dot_S1024x337_S337x300_S1024x300_1_0_0_1_n_n_wf
def dot_S32x300_S300x300_S32x300_1_0_0_1_n_n : DotDims S32x300 S300x300 S32x300 where
  lhsContracting := [1]
  rhsContracting := [0]
  lhsNonContracting := [0]
  rhsNonContracting := [1]
  lhsBatch := []
  rhsBatch := []
  wf := dot_S32x300_S300x300_S32x300_1_0_0_1_n_n_wf
def dot_S32x300_S300x1_S32x1_1_0_0_1_n_n : DotDims S32x300 S300x1 S32x1 where
  lhsContracting := [1]
  rhsContracting := [0]
  lhsNonContracting := [0]
  rhsNonContracting := [1]
  lhsBatch := []
  rhsBatch := []
  wf := dot_S32x300_S300x1_S32x1_1_0_0_1_n_n_wf

abbrev win0_0 : Pipeline.Window sig grid0 :=
  Pipeline.Window.ofSpec (Memref.whole main_arg0) S32x128x337.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128x337.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S337x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S300x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S300x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S300.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S300x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S32x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S512x128x337 : Shape := ⟨3, ![512, 128, 337]⟩
abbrev S300x337 : Shape := ⟨2, ![300, 337]⟩
abbrev S300 : Shape := ⟨1, ![300]⟩
abbrev S300x600 : Shape := ⟨2, ![300, 600]⟩
abbrev S1x300 : Shape := ⟨2, ![1, 300]⟩
abbrev S1 : Shape := ⟨1, ![1]⟩
abbrev S512x128x300 : Shape := ⟨3, ![512, 128, 300]⟩
abbrev S1x1x300 : Shape := ⟨3, ![1, 1, 300]⟩
abbrev S_ : Shape := ⟨0, ![]⟩
abbrev S512x300 : Shape := ⟨2, ![512, 300]⟩
abbrev S512x600 : Shape := ⟨2, ![512, 600]⟩
abbrev S600x300 : Shape := ⟨2, ![600, 300]⟩
abbrev S300x1 : Shape := ⟨2, ![300, 1]⟩
abbrev S512x1 : Shape := ⟨2, ![512, 1]⟩
abbrev S1x1 : Shape := ⟨2, ![1, 1]⟩

abbrev nBuf : Space → Nat
  | .hbm => 40
  | .vmem => 0
  | .smem => 0
  | _ => 0

abbrev bufTy : (tb : Table) → Fin (tcTables nBuf tb) → BufTy
  | .hbm, ⟨0, _⟩ => ⟨S512x128x337, .f32⟩
  | .hbm, ⟨1, _⟩ => ⟨S512x128x337, .f32⟩
  | .hbm, ⟨2, _⟩ => ⟨S300x337, .f32⟩
  | .hbm, ⟨3, _⟩ => ⟨S300, .f32⟩
  | .hbm, ⟨4, _⟩ => ⟨S300x600, .f32⟩
  | .hbm, ⟨5, _⟩ => ⟨S300, .f32⟩
  | .hbm, ⟨6, _⟩ => ⟨S1x300, .f32⟩
  | .hbm, ⟨7, _⟩ => ⟨S1, .f32⟩
  | .hbm, ⟨8, _⟩ => ⟨S512x128x300, .f32⟩
  | .hbm, ⟨9, _⟩ => ⟨S1x1x300, .f32⟩
  | .hbm, ⟨10, _⟩ => ⟨S512x128x300, .f32⟩
  | .hbm, ⟨11, _⟩ => ⟨S512x128x300, .f32⟩
  | .hbm, ⟨12, _⟩ => ⟨S_, .f32⟩
  | .hbm, ⟨13, _⟩ => ⟨S512x128x300, .f32⟩
  | .hbm, ⟨14, _⟩ => ⟨S512x128x300, .f32⟩
  | .hbm, ⟨15, _⟩ => ⟨S_, .f32⟩
  | .hbm, ⟨16, _⟩ => ⟨S512x300, .f32⟩
  | .hbm, ⟨17, _⟩ => ⟨S512x128x300, .f32⟩
  | .hbm, ⟨18, _⟩ => ⟨S1x1x300, .f32⟩
  | .hbm, ⟨19, _⟩ => ⟨S512x128x300, .f32⟩
  | .hbm, ⟨20, _⟩ => ⟨S512x128x300, .f32⟩
  | .hbm, ⟨21, _⟩ => ⟨S_, .f32⟩
  | .hbm, ⟨22, _⟩ => ⟨S512x128x300, .f32⟩
  | .hbm, ⟨23, _⟩ => ⟨S512x128x300, .f32⟩
  | .hbm, ⟨24, _⟩ => ⟨S_, .f32⟩
  | .hbm, ⟨25, _⟩ => ⟨S512x300, .f32⟩
  | .hbm, ⟨26, _⟩ => ⟨S512x300, .f32⟩
  | .hbm, ⟨27, _⟩ => ⟨S512x300, .f32⟩
  | .hbm, ⟨28, _⟩ => ⟨S512x600, .f32⟩
  | .hbm, ⟨29, _⟩ => ⟨S600x300, .f32⟩
  | .hbm, ⟨30, _⟩ => ⟨S512x300, .f32⟩
  | .hbm, ⟨31, _⟩ => ⟨S1x300, .f32⟩
  | .hbm, ⟨32, _⟩ => ⟨S512x300, .f32⟩
  | .hbm, ⟨33, _⟩ => ⟨S512x300, .f32⟩
  | .hbm, ⟨34, _⟩ => ⟨S512x300, .f32⟩
  | .hbm, ⟨35, _⟩ => ⟨S300x1, .f32⟩
  | .hbm, ⟨36, _⟩ => ⟨S512x1, .f32⟩
  | .hbm, ⟨37, _⟩ => ⟨S1x1, .f32⟩
  | .hbm, ⟨38, _⟩ => ⟨S512x1, .f32⟩
  | .hbm, ⟨39, _⟩ => ⟨S512x1, .f32⟩
  | _, _ => ⟨S512x128x337, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_cst : Ref sig .tc := ⟨.hbm, 21, rfl⟩
abbrev main_call1_v0 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S300_S1x1x300_2 : S300.BroadcastsInDim S1x1x300 (![2] : Fin 1 → Fin S1x1x300.rank)
  bcast_S1x1x300_S512x128x300_0_1_2 : S1x1x300.BroadcastsInDim S512x128x300 (![0, 1, 2] : Fin 3 → Fin S512x128x300.rank)
  bcast_S_S512x128x300 : S_.BroadcastsInDim S512x128x300 (![] : Fin 0 → Fin S512x128x300.rank)
  reducesTo_S512x128x300_S512x300_d1 : S512x128x300.ReducesTo [1] S512x300
  h_S_ : 0 < S_.numel
  concatenates_S512x300_S512x300_S512x600_d1 : Shape.Concatenates [S512x300, S512x300] S512x600 1
  transposes_S300x600_S600x300_1_0 : S300x600.Transposes [1, 0] S600x300
  bcast_S300_S1x300_1 : S300.BroadcastsInDim S1x300 (![1] : Fin 1 → Fin S1x300.rank)
  bcast_S1x300_S512x300_0_1 : S1x300.BroadcastsInDim S512x300 (![0, 1] : Fin 2 → Fin S512x300.rank)
  transposes_S1x300_S300x1_1_0 : S1x300.Transposes [1, 0] S300x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S512x128x337_S300x337_S512x128x300_2_1_01_0_n_n_wf : DotDims.WF S512x128x337 S300x337 S512x128x300 [2] [1] [0, 1] [0] [] []
  dot_S512x600_S600x300_S512x300_1_0_0_1_n_n_wf : DotDims.WF S512x600 S600x300 S512x300 [1] [0] [0] [1] [] []
  dot_S512x300_S300x1_S512x1_1_0_0_1_n_n_wf : DotDims.WF S512x300 S300x1 S512x1 [1] [0] [0] [1] [] []

variable [Facts₀]

def dot_S512x128x337_S300x337_S512x128x300_2_1_01_0_n_n : DotDims S512x128x337 S300x337 S512x128x300 where
  lhsContracting := [2]
  rhsContracting := [1]
  lhsNonContracting := [0, 1]
  rhsNonContracting := [0]
  lhsBatch := []
  rhsBatch := []
  wf := dot_S512x128x337_S300x337_S512x128x300_2_1_01_0_n_n_wf
def dot_S512x600_S600x300_S512x300_1_0_0_1_n_n : DotDims S512x600 S600x300 S512x300 where
  lhsContracting := [1]
  rhsContracting := [0]
  lhsNonContracting := [0]
  rhsNonContracting := [1]
  lhsBatch := []
  rhsBatch := []
  wf := dot_S512x600_S600x300_S512x300_1_0_0_1_n_n_wf
def dot_S512x300_S300x1_S512x1_1_0_0_1_n_n : DotDims S512x300 S300x1 S512x1 where
  lhsContracting := [1]
  rhsContracting := [0]
  lhsNonContracting := [0]
  rhsNonContracting := [1]
  lhsBatch := []
  rhsBatch := []
  wf := dot_S512x300_S300x1_S512x1_1_0_0_1_n_n_wf

class Facts : Prop extends Facts₀ where

variable [Facts]
-- ==== Proof.Spec.lean ====
/-
  The mathematics both programs compute, stated once, with no program in sight.

  A batch row carries two sentences, each 128 words of 337 features. A sentence is encoded feature by feature:
  every word is scored by an affine map (a row of the convolution weight against the word, plus a bias), the score is
  rectified (`max · 0`), and the encoding keeps the largest rectified score over the 128 words. From the two
  encodings `u`, `v` the row's score is a two-layer perceptron of the 600 features `(u - v, u * v)`: 300 hidden
  units with `tanh`, one output. The first layer's weight is one [300, 600] matrix; its left half multiplies the
  differences and its right half the products, so the sum over 600 features is the sum of the two half sums
  (`sum_fin600`): that is the only rearrangement between the two programs, and it uses nothing but the
  associativity and commutativity of addition on the extended reals.

  The f32 words for zero and for minus infinity are kept as words (`zeroW`, `negInfW`): both programs use the same
  words in the same places, so their values are never needed.
-/
import Idealize.ShloMosaic.PureOps.Ideal
import Idealize.ShloMosaic.Lib.ValueIdx

noncomputable section

namespace Cert.PairScore

open Idealize.ShloMosaic Idealize.ShloMosaic.ValueIdx

/-- The f32 word of zero, as an extended real. -/
abbrev zeroW : EReal := Ideal.ofBits .f32 0x00000000#32
/-- The f32 word of minus infinity, as an extended real: where the maximum over the words starts. -/
abbrev negInfW : EReal := Ideal.ofBits .f32 0xFF800000#32

/-- Feature `o` of a sentence's encoding: the largest, over its 128 words, of the rectified affine score of the word. -/
def pooled (x : Fin 128 → Fin 337 → EReal) (cw : Fin 300 → Fin 337 → EReal) (cb : Fin 300 → EReal) (o : Fin 300) : EReal :=
  (Finset.univ : Finset (Fin 128)).fold max negInfW fun p => max ((∑ d : Fin 337, x p d * cw o d) + cb o) zeroW

/-- Hidden unit `k` before its `tanh`, from the two encodings: the differences against `wa`, the products against `wb`,
    and the bias. -/
def hidden (u v : Fin 300 → EReal) (wa wb : Fin 300 → Fin 300 → EReal) (fb : Fin 300 → EReal) (k : Fin 300) : EReal :=
  ((∑ q : Fin 300, (u q - v q) * wa k q) + ∑ q : Fin 300, (u q * v q) * wb k q) + fb k

/-- A batch row's score from its two sentences and the parameters. -/
def score (xa xb : Fin 128 → Fin 337 → EReal) (cw : Fin 300 → Fin 337 → EReal) (cb : Fin 300 → EReal)
    (wa wb : Fin 300 → Fin 300 → EReal) (fb : Fin 300 → EReal) (w2 : Fin 300 → EReal) (b2 : EReal) : EReal :=
  (∑ k : Fin 300, Ideal.tanh (hidden (pooled xa cw cb) (pooled xb cw cb) wa wb fb k) * w2 k) + b2

/-- The whole result, [512, 1], as one function of the eight argument arrays: row `i 0`'s score, the first layer's
    weight split into its left half (columns 0–299) and its right half (columns 300–599). -/
def G (X0 X1 : (⟨3, ![512, 128, 337]⟩ : Shape).Idx → EReal) (CW : (⟨2, ![300, 337]⟩ : Shape).Idx → EReal)
    (CB : (⟨1, ![300]⟩ : Shape).Idx → EReal) (F1W : (⟨2, ![300, 600]⟩ : Shape).Idx → EReal)
    (F1B : (⟨1, ![300]⟩ : Shape).Idx → EReal) (F2W : (⟨2, ![1, 300]⟩ : Shape).Idx → EReal)
    (F2B : (⟨1, ![1]⟩ : Shape).Idx → EReal) : (⟨2, ![512, 1]⟩ : Shape).Idx → EReal := fun i =>
  score (fun p d => X0 (ix3 (i 0) p d)) (fun p d => X1 (ix3 (i 0) p d)) (fun o d => CW (ix2 o d)) (fun o => CB (ix1 o))
    (fun k q => F1W (ix2 k (⟨q.val, by omega⟩ : Fin 600))) (fun k q => F1W (ix2 k (⟨300 + q.val, by omega⟩ : Fin 600)))
    (fun k => F1B (ix1 k)) (fun k => F2W (ix2 (0 : Fin 1) k)) (F2B (ix1 (0 : Fin 1)))

/-- A sum over 600 features is the sum over the first 300 plus the sum over the last 300. -/
theorem sum_fin600 {M : Type*} [AddCommMonoid M] (f : Fin 600 → M) :
    ∑ k : Fin 600, f k = (∑ q : Fin 300, f ⟨q.val, by omega⟩) + ∑ q : Fin 300, f ⟨300 + q.val, by omega⟩ :=
  Fin.sum_univ_add (a := 300) (b := 300) f

end Cert.PairScore

end
-- ==== Proof.KernelProducts.lean ====
/-
  The kernel's three matrix products, each read at one entry of its result. On the extended reals a product of an
  [M, K] block with a [K, N] block, accumulated into zeros, is at entry (i, j) the plain sum over the K contracted
  positions of the left block's row i against the right block's column j: no rounding, no order of accumulation.
-/
import proofs.«173753_j30846455120276_2_alg».proof.Proof.Gen.KernelIdeal.Skeleton
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.ValueIdx

/-- The word-by-feature product of a chunk: 1024 words of 337 features against the [337, 300] weight. -/
theorem wordScores_apply (l : FVec Ideal S1024x337 .bf16) (r : FVec Ideal S337x300 .bf16) (i : Fin 1024) (j : Fin 300) :
    matmul dot_S1024x337_S337x300_S1024x300_1_0_0_1_n_n none l r (constant S1024x300 .f32 0x00000000#32) (ix2 i j) = ∑ k : Fin 337, l (ix2 i k) * r (ix2 k j) := by
  simp only [matmul]
  rw [Ideal.matmul_constant_zero_apply, ← Equiv.sum_comp (contrEquiv1 dot_S1024x337_S337x300_S1024x300_1_0_0_1_n_n 337 rfl rfl).symm]
  refine Finset.sum_congr rfl fun k _ => ?_
  have hk := contrEquiv1_symm_val dot_S1024x337_S337x300_S1024x300_1_0_0_1_n_n 337 rfl rfl k
  have el : dot_S1024x337_S337x300_S1024x300_1_0_0_1_n_n.lhsIdx (ix2 i j) ((contrEquiv1 dot_S1024x337_S337x300_S1024x300_1_0_0_1_n_n 337 rfl rfl).symm k) = ix2 i k := funext fun a => Fin.ext (by
    match a with
    | ⟨0, _⟩ =>
      show (dot_S1024x337_S337x300_S1024x300_1_0_0_1_n_n.lhsIdx (ix2 i j) _ 0).val = i.val
      unfold DotDims.lhsIdx
      rw [dif_neg (show ¬(0 : Fin S1024x337.rank) ∈ dot_S1024x337_S337x300_S1024x300_1_0_0_1_n_n.lhsBatch by decide), dif_pos (show (0 : Fin S1024x337.rank) ∈ dot_S1024x337_S337x300_S1024x300_1_0_0_1_n_n.lhsNonContracting by decide)]
      rfl
    | ⟨1, _⟩ => exact (dot_S1024x337_S337x300_S1024x300_1_0_0_1_n_n.lhsIdx_val_of_single rfl (ix2 i j) _).trans hk)
  have er : dot_S1024x337_S337x300_S1024x300_1_0_0_1_n_n.rhsIdx (ix2 i j) ((contrEquiv1 dot_S1024x337_S337x300_S1024x300_1_0_0_1_n_n 337 rfl rfl).symm k) = ix2 k j := funext fun a => Fin.ext (by
    match a with
    | ⟨0, _⟩ => exact (dot_S1024x337_S337x300_S1024x300_1_0_0_1_n_n.rhsIdx_val_of_single rfl (ix2 i j) _).trans hk
    | ⟨1, _⟩ =>
      show (dot_S1024x337_S337x300_S1024x300_1_0_0_1_n_n.rhsIdx (ix2 i j) _ 1).val = j.val
      unfold DotDims.rhsIdx
      rw [dif_neg (show ¬(1 : Fin S337x300.rank) ∈ dot_S1024x337_S337x300_S1024x300_1_0_0_1_n_n.rhsBatch by decide), dif_pos (show (1 : Fin S337x300.rank) ∈ dot_S1024x337_S337x300_S1024x300_1_0_0_1_n_n.rhsNonContracting by decide)]
      rfl)
  rw [el, er]

/-- A first-layer product: 32 rows of 300 features against a [300, 300] half of the first weight. -/
theorem firstLayer_apply (l : FVec Ideal S32x300 .bf16) (r : FVec Ideal S300x300 .bf16) (i : Fin 32) (j : Fin 300) :
    matmul dot_S32x300_S300x300_S32x300_1_0_0_1_n_n none l r (constant S32x300 .f32 0x00000000#32) (ix2 i j) = ∑ k : Fin 300, l (ix2 i k) * r (ix2 k j) := by
  simp only [matmul]
  rw [Ideal.matmul_constant_zero_apply, ← Equiv.sum_comp (contrEquiv1 dot_S32x300_S300x300_S32x300_1_0_0_1_n_n 300 rfl rfl).symm]
  refine Finset.sum_congr rfl fun k _ => ?_
  have hk := contrEquiv1_symm_val dot_S32x300_S300x300_S32x300_1_0_0_1_n_n 300 rfl rfl k
  have el : dot_S32x300_S300x300_S32x300_1_0_0_1_n_n.lhsIdx (ix2 i j) ((contrEquiv1 dot_S32x300_S300x300_S32x300_1_0_0_1_n_n 300 rfl rfl).symm k) = ix2 i k := funext fun a => Fin.ext (by
    match a with
    | ⟨0, _⟩ =>
      show (dot_S32x300_S300x300_S32x300_1_0_0_1_n_n.lhsIdx (ix2 i j) _ 0).val = i.val
      unfold DotDims.lhsIdx
      rw [dif_neg (show ¬(0 : Fin S32x300.rank) ∈ dot_S32x300_S300x300_S32x300_1_0_0_1_n_n.lhsBatch by decide), dif_pos (show (0 : Fin S32x300.rank) ∈ dot_S32x300_S300x300_S32x300_1_0_0_1_n_n.lhsNonContracting by decide)]
      rfl
    | ⟨1, _⟩ => exact (dot_S32x300_S300x300_S32x300_1_0_0_1_n_n.lhsIdx_val_of_single rfl (ix2 i j) _).trans hk)
  have er : dot_S32x300_S300x300_S32x300_1_0_0_1_n_n.rhsIdx (ix2 i j) ((contrEquiv1 dot_S32x300_S300x300_S32x300_1_0_0_1_n_n 300 rfl rfl).symm k) = ix2 k j := funext fun a => Fin.ext (by
    match a with
    | ⟨0, _⟩ => exact (dot_S32x300_S300x300_S32x300_1_0_0_1_n_n.rhsIdx_val_of_single rfl (ix2 i j) _).trans hk
    | ⟨1, _⟩ =>
      show (dot_S32x300_S300x300_S32x300_1_0_0_1_n_n.rhsIdx (ix2 i j) _ 1).val = j.val
      unfold DotDims.rhsIdx
      rw [dif_neg (show ¬(1 : Fin S300x300.rank) ∈ dot_S32x300_S300x300_S32x300_1_0_0_1_n_n.rhsBatch by decide), dif_pos (show (1 : Fin S300x300.rank) ∈ dot_S32x300_S300x300_S32x300_1_0_0_1_n_n.rhsNonContracting by decide)]
      rfl)
  rw [el, er]

/-- The second-layer product: 32 rows of 300 hidden units against the [300, 1] second weight. -/
theorem secondLayer_apply (l : FVec Ideal S32x300 .bf16) (r : FVec Ideal S300x1 .bf16) (i : Fin 32) (j : Fin 1) :
    matmul dot_S32x300_S300x1_S32x1_1_0_0_1_n_n none l r (constant S32x1 .f32 0x00000000#32) (ix2 i j) = ∑ k : Fin 300, l (ix2 i k) * r (ix2 k j) := by
  simp only [matmul]
  rw [Ideal.matmul_constant_zero_apply, ← Equiv.sum_comp (contrEquiv1 dot_S32x300_S300x1_S32x1_1_0_0_1_n_n 300 rfl rfl).symm]
  refine Finset.sum_congr rfl fun k _ => ?_
  have hk := contrEquiv1_symm_val dot_S32x300_S300x1_S32x1_1_0_0_1_n_n 300 rfl rfl k
  have el : dot_S32x300_S300x1_S32x1_1_0_0_1_n_n.lhsIdx (ix2 i j) ((contrEquiv1 dot_S32x300_S300x1_S32x1_1_0_0_1_n_n 300 rfl rfl).symm k) = ix2 i k := funext fun a => Fin.ext (by
    match a with
    | ⟨0, _⟩ =>
      show (dot_S32x300_S300x1_S32x1_1_0_0_1_n_n.lhsIdx (ix2 i j) _ 0).val = i.val
      unfold DotDims.lhsIdx
      rw [dif_neg (show ¬(0 : Fin S32x300.rank) ∈ dot_S32x300_S300x1_S32x1_1_0_0_1_n_n.lhsBatch by decide), dif_pos (show (0 : Fin S32x300.rank) ∈ dot_S32x300_S300x1_S32x1_1_0_0_1_n_n.lhsNonContracting by decide)]
      rfl
    | ⟨1, _⟩ => exact (dot_S32x300_S300x1_S32x1_1_0_0_1_n_n.lhsIdx_val_of_single rfl (ix2 i j) _).trans hk)
  have er : dot_S32x300_S300x1_S32x1_1_0_0_1_n_n.rhsIdx (ix2 i j) ((contrEquiv1 dot_S32x300_S300x1_S32x1_1_0_0_1_n_n 300 rfl rfl).symm k) = ix2 k j := funext fun a => Fin.ext (by
    match a with
    | ⟨0, _⟩ => exact (dot_S32x300_S300x1_S32x1_1_0_0_1_n_n.rhsIdx_val_of_single rfl (ix2 i j) _).trans hk
    | ⟨1, _⟩ =>
      show (dot_S32x300_S300x1_S32x1_1_0_0_1_n_n.rhsIdx (ix2 i j) _ 1).val = j.val
      unfold DotDims.rhsIdx
      rw [dif_neg (show ¬(1 : Fin S300x1.rank) ∈ dot_S32x300_S300x1_S32x1_1_0_0_1_n_n.rhsBatch by decide), dif_pos (show (1 : Fin S300x1.rank) ∈ dot_S32x300_S300x1_S32x1_1_0_0_1_n_n.rhsNonContracting by decide)]
      rfl)
  rw [el, er]

end Cert.KernelIdeal.Products

end
-- ==== Proof.Encode.lean ====
/-
  A chunk of a sentence block, encoded. The kernel takes a block of 32 rows in four chunks of 8 rows; a chunk is
  flattened to 8·128 = 1024 words, multiplied against the [337, 300] weight, the bias row added, rectified, folded back
  to [8, 128, 300], and reduced by `max` over the 128 words. Entry (a, o) of the result is therefore the encoding
  `pooled` of row a's 128 words: word p of row a is word 128·a + p of the flattened chunk, and the two reshapes
  preserve the row-major position.
-/
import proofs.«173753_j30846455120276_2_alg».proof.Proof.Spec
import proofs.«173753_j30846455120276_2_alg».proof.Proof.KernelProducts
import Idealize.ShloMosaic.Lib.Pipeline.Value
import Idealize.ShloMosaic.Lib.ValueLayout

noncomputable section

namespace Cert.KernelIdeal.Encode

open Cert.KernelIdeal Cert.KernelIdeal.Gen Idealize.ShloMosaic Idealize.ShloMosaic.ValueIdx Cert.PairScore Cert.KernelIdeal.Products

/-- The rectified word scores of a chunk, [8, 128, 300], in the kernel's own operations. -/
def chunkScores (xc : Vec Ideal S8x128x337 .f32) (w : FVec Ideal S337x300 .bf16) (b3 : FVec Ideal S1x300 .f32) :
    FVec Ideal S8x128x300 .f32 :=
  shapeCast S8x128x300 (maximumf (addf (matmul dot_S1024x337_S337x300_S1024x300_1_0_0_1_n_n none
      (shapeCast S1024x337 (truncf .bf16 xc bitsLt_bf16_f32) shapeCasts_S8x128x337_S1024x337) w (constant S1024x300 .f32 0x00000000#32))
      (broadcastTo S1024x300 b3 broadcasts_S1x300_S1024x300)) (broadcast S1024x300 (Scalar.ofBits .f32 0x00000000#32)))
    shapeCasts_S1024x300_S8x128x300

/-- Word p of row a of a chunk is word 128·a + p of the flattened chunk. -/
theorem flatten_apply (y : FVec Ideal S8x128x337 .bf16) (h : S8x128x337.ShapeCasts S1024x337) (a : Fin 8) (p : Fin 128) (d : Fin 337) :
    shapeCast S1024x337 y h (ix2 (⟨128 * a.val + p.val, by omega⟩ : Fin 1024) d) = y (ix3 a p d) :=
  shapeCast_apply y h _ _ (by
    rw [Shape.rowMajor_val_two, Shape.rowMajor_val_three]
    show (a.val * 128 + p.val) * 337 + d.val = (128 * a.val + p.val) * 337 + d.val
    omega)

/-- The bias row, broadcast down the 1024 words, reads the bias of the output feature. -/
theorem biasRow_apply (b3 : FVec Ideal S1x300 .f32) (h : S1x300.Broadcasts S1024x300) (q : Fin 1024) (o : Fin 300) :
    broadcastTo S1024x300 b3 h (ix2 q o) = b3 (ix2 (0 : Fin 1) o) :=
  broadcastTo_apply b3 h _ _ (fun a => match a with
    | ⟨0, _⟩ => by show 0 = if (1 : Nat) = 1 then 0 else _; rw [if_pos rfl]
    | ⟨1, _⟩ => by show o.val = if (300 : Nat) = 1 then 0 else o.val; rw [if_neg (by decide)])

/-- A chunk's rectified score at row a, word p, output feature o. -/
theorem chunkScores_apply (xc : Vec Ideal S8x128x337 .f32) (w : FVec Ideal S337x300 .bf16) (b3 : FVec Ideal S1x300 .f32)
    (a : Fin 8) (p : Fin 128) (o : Fin 300) :
    chunkScores xc w b3 (ix3 a p o)
      = max ((∑ d : Fin 337, xc (ix3 a p d) * w (ix2 d o)) + b3 (ix2 (0 : Fin 1) o)) zeroW := by
  unfold chunkScores
  refine (shapeCast_apply _ shapeCasts_S1024x300_S8x128x300 (ix3 a p o) (ix2 (⟨128 * a.val + p.val, by omega⟩ : Fin 1024) o) (by
    rw [Shape.rowMajor_val_two, Shape.rowMajor_val_three]
    show (128 * a.val + p.val) * 300 + o.val = (a.val * 128 + p.val) * 300 + o.val
    omega)).trans ?_
  rw [maximumf_apply, addf_apply, wordScores_apply, biasRow_apply, broadcast_apply]
  simp only [flatten_apply, truncf_apply]
  rfl

/-- The largest rectified score over a row's words: entry (a, o) of a chunk's encoding is `pooled` of row a. -/
theorem chunkPooled_apply (xc : Vec Ideal S8x128x337 .f32) (w : FVec Ideal S337x300 .bf16) (b3 : FVec Ideal S1x300 .f32)
    (h : S8x128x300.Reduces [1] S8x300) (hφ : FKind.Formats .f32) (hacc : (0xFF800000#32 : BitVec 32) = FKind.maximumf.neutral .f32 hφ)
    (a : Fin 8) (o : Fin 300) :
    multiReduction .maximumf [1] S8x300 (chunkScores xc w b3) 0xFF800000#32 h hφ hacc (ix2 a o)
      = pooled (fun p d => xc (ix3 a p d)) (fun o d => w (ix2 d o)) (fun o => b3 (ix2 (0 : Fin 1) o)) o := by
  refine (Ideal.multiReduction_maximumf_single (chunkScores xc w b3) 0xFF800000#32 h hφ hacc (ix2 a o)).trans ?_
  have e : ∀ p : Fin 128, h.lift (ix2 a o) p = ix3 a p o := fun p => funext fun c => Fin.ext (by
    match c with
    | ⟨0, _⟩ => rfl
    | ⟨1, _⟩ => rfl
    | ⟨2, _⟩ => rfl)
  show Finset.fold max negInfW (fun p : Fin 128 => chunkScores xc w b3 (h.lift (ix2 a o) p)) Finset.univ = _
  unfold pooled
  exact congrArg (fun f => Finset.fold max negInfW f Finset.univ) (funext fun p => by rw [e p, chunkScores_apply])

/-- Rows c … c+7 of a block, loaded as a chunk: row a of the chunk is row c + a of the block. -/
theorem chunkLoad_apply (x : Vec Ideal S32x128x337 .f32) (c : Nat) (hc : c ≤ 24)
    (inb : ∀ a, (![c, 0, 0] : Fin 3 → Nat) a + S8x128x337.size a ≤ S32x128x337.size a) (a : Fin 8) (p : Fin 128) (d : Fin 337) :
    View.ld x (Rect.unit (s := S32x128x337) ![c, 0, 0] S8x128x337.size inb) (ix3 a p d)
      = x (ix3 (⟨c + a.val, by omega⟩ : Fin 32) p d) := by
  show x ((Rect.unit (s := S32x128x337) ![c, 0, 0] S8x128x337.size inb).emb (ix3 a p d)) = _
  refine congrArg x (funext fun b => Fin.ext ?_)
  match b with
  | ⟨0, _⟩ => show c + 1 * a.val = c + a.val; omega
  | ⟨1, _⟩ => show 0 + 1 * p.val = p.val; omega
  | ⟨2, _⟩ => show 0 + 1 * d.val = d.val; omega

/-- Row r's encoding from a block of 32 rows, the weight [337, 300] and the bias row [1, 300]. -/
def blockEnc (x : Vec Ideal S32x128x337 .f32) (w : FVec Ideal S337x300 .bf16) (b3 : FVec Ideal S1x300 .f32) (r : Fin 32) (o : Fin 300) : EReal :=
  pooled (fun p d => x (ix3 r p d)) (fun o d => w (ix2 d o)) (fun o => b3 (ix2 (0 : Fin 1) o)) o

/-- The chunk of rows c … c+7, encoded, holds at (a, o) the encoding of block row c + a. -/
theorem chunkEnc_apply (x : Vec Ideal S32x128x337 .f32) (c : Nat) (hc : c ≤ 24)
    (inb : ∀ a, (![c, 0, 0] : Fin 3 → Nat) a + S8x128x337.size a ≤ S32x128x337.size a)
    (w : FVec Ideal S337x300 .bf16) (b3 : FVec Ideal S1x300 .f32)
    (h : S8x128x300.Reduces [1] S8x300) (hφ : FKind.Formats .f32) (hacc : (0xFF800000#32 : BitVec 32) = FKind.maximumf.neutral .f32 hφ)
    (a : Fin 8) (o : Fin 300) :
    multiReduction .maximumf [1] S8x300 (chunkScores (View.ld x (Rect.unit (s := S32x128x337) ![c, 0, 0] S8x128x337.size inb)) w b3)
        0xFF800000#32 h hφ hacc (ix2 a o)
      = blockEnc x w b3 (⟨c + a.val, by omega⟩ : Fin 32) o := by
  rw [chunkPooled_apply]
  unfold blockEnc
  simp only [chunkLoad_apply x c hc inb]

/-- Four 8-row pieces stacked into 32 rows: row r comes from piece r / 8, at its row r mod 8. Stated for pieces that
    each hold their own rows of ONE function `E` of the row. -/
theorem stack4_apply (f0 f1 f2 f3 : FVec Ideal S8x300 .f32) (h : Shape.Concatenates [S8x300, S8x300, S8x300, S8x300] S32x300 0)
    (E : Fin 32 → Fin 300 → EReal)
    (h0 : ∀ (a : Fin 8) (o : Fin 300), f0 (ix2 a o) = E ⟨0 + a.val, by omega⟩ o)
    (h1 : ∀ (a : Fin 8) (o : Fin 300), f1 (ix2 a o) = E ⟨8 + a.val, by omega⟩ o)
    (h2 : ∀ (a : Fin 8) (o : Fin 300), f2 (ix2 a o) = E ⟨16 + a.val, by omega⟩ o)
    (h3 : ∀ (a : Fin 8) (o : Fin 300), f3 (ix2 a o) = E ⟨24 + a.val, by omega⟩ o)
    (r : Fin 32) (o : Fin 300) :
    concatenate S32x300 0 [⟨S8x300, f0⟩, ⟨S8x300, f1⟩, ⟨S8x300, f2⟩, ⟨S8x300, f3⟩] h (ix2 r o) = E r o := by
  rcases (by omega : r.val < 8 ∨ (8 ≤ r.val ∧ r.val < 16) ∨ (16 ≤ r.val ∧ r.val < 24) ∨ 24 ≤ r.val) with hr | hr | hr | hr
  · refine (concatenate_apply_piece (0 : Fin S32x300.rank) [⟨S8x300, f0⟩, ⟨S8x300, f1⟩, ⟨S8x300, f2⟩, ⟨S8x300, f3⟩] h (ix2 r o) 0 (by show (0 : Nat) < 4; omega) S8x300 f0 rfl rfl 0 rfl
      (ix2 (⟨r.val - 0, by omega⟩ : Fin 8) o) (fun b hb' => match b, hb' with | ⟨0, _⟩, hb' => absurd rfl hb' | ⟨1, _⟩, _ => rfl) (by show 0 + (r.val - 0) = r.val; omega)).trans ?_
    rw [h0]; exact congrArg (fun q => E q o) (Fin.ext (by show 0 + (r.val - 0) = r.val; omega))
  · refine (concatenate_apply_piece (0 : Fin S32x300.rank) [⟨S8x300, f0⟩, ⟨S8x300, f1⟩, ⟨S8x300, f2⟩, ⟨S8x300, f3⟩] h (ix2 r o) 1 (by show (1 : Nat) < 4; omega) S8x300 f1 rfl rfl 8 rfl
      (ix2 (⟨r.val - 8, by omega⟩ : Fin 8) o) (fun b hb' => match b, hb' with | ⟨0, _⟩, hb' => absurd rfl hb' | ⟨1, _⟩, _ => rfl) (by show 8 + (r.val - 8) = r.val; omega)).trans ?_
    rw [h1]; exact congrArg (fun q => E q o) (Fin.ext (by show 8 + (r.val - 8) = r.val; omega))
  · refine (concatenate_apply_piece (0 : Fin S32x300.rank) [⟨S8x300, f0⟩, ⟨S8x300, f1⟩, ⟨S8x300, f2⟩, ⟨S8x300, f3⟩] h (ix2 r o) 2 (by show (2 : Nat) < 4; omega) S8x300 f2 rfl rfl 16 rfl
      (ix2 (⟨r.val - 16, by omega⟩ : Fin 8) o) (fun b hb' => match b, hb' with | ⟨0, _⟩, hb' => absurd rfl hb' | ⟨1, _⟩, _ => rfl) (by show 16 + (r.val - 16) = r.val; omega)).trans ?_
    rw [h2]; exact congrArg (fun q => E q o) (Fin.ext (by show 16 + (r.val - 16) = r.val; omega))
  · have := r.isLt
    refine (concatenate_apply_piece (0 : Fin S32x300.rank) [⟨S8x300, f0⟩, ⟨S8x300, f1⟩, ⟨S8x300, f2⟩, ⟨S8x300, f3⟩] h (ix2 r o) 3 (by show (3 : Nat) < 4; omega) S8x300 f3 rfl rfl 24 rfl
      (ix2 (⟨r.val - 24, by omega⟩ : Fin 8) o) (fun b hb' => match b, hb' with | ⟨0, _⟩, hb' => absurd rfl hb' | ⟨1, _⟩, _ => rfl) (by show 24 + (r.val - 24) = r.val; omega)).trans ?_
    rw [h3]; exact congrArg (fun q => E q o) (Fin.ext (by show 24 + (r.val - 24) = r.val; omega))

end Cert.KernelIdeal.Encode

end
-- ==== Proof.Body.lean ====
/-
  What the kernel's body leaves in its output block, entry by entry: the score of the block's row.

  The body's one store writes a [32, 1] value. Read backwards: it is the second-layer product of the `tanh` hidden
  units plus the output bias; the hidden units are the sum of two first-layer products — the encodings' differences
  against one [300, 300] block of weights, their products against another — plus the first bias; and each of the two
  encodings is four 8-row chunk encodings stacked, so its row r is the encoding of block row r whichever chunk r lies
  in. Entry (r, 0) of the block is therefore `score` of row r of the two sentence blocks, with the weights read
  through the layouts the kernel receives them in.
-/
import proofs.«173753_j30846455120276_2_alg».proof.Proof.Encode
import proofs.«173753_j30846455120276_2_alg».proof.Proof.Gen.KernelIdeal.Frame

noncomputable section

namespace Cert.KernelIdeal.Body

open Cert.KernelIdeal Cert.KernelIdeal.Gen Idealize.ShloMosaic Idealize.ShloMosaic.ValueIdx Cert.PairScore
open Cert.KernelIdeal.Products Cert.KernelIdeal.Encode

/-- The perceptron on a block's two encodings, in the kernel's own operations. -/
def mlpBlock (u v : FVec Ideal S32x300 .f32) (wa wb : Vec Ideal S300x300 .bf16) (fb : Vec Ideal S300 .f32)
    (w2 : Vec Ideal S300x1 .bf16) (b2 : Vec Ideal S1 .f32) : FVec Ideal S32x1 .f32 :=
  addf (matmul dot_S32x300_S300x1_S32x1_1_0_0_1_n_n none
      (truncf .bf16 (tanh (addf (addf
          (matmul dot_S32x300_S300x300_S32x300_1_0_0_1_n_n none (truncf .bf16 (subf u v) bitsLt_bf16_f32)
            (shapeCast S300x300 wa shapeCasts_S300x300_S300x300 : FVec Ideal S300x300 .bf16) (constant S32x300 .f32 0x00000000#32))
          (matmul dot_S32x300_S300x300_S32x300_1_0_0_1_n_n none (truncf .bf16 (mulf u v) bitsLt_bf16_f32)
            (shapeCast S300x300 wb shapeCasts_S300x300_S300x300 : FVec Ideal S300x300 .bf16) (constant S32x300 .f32 0x00000000#32)))
          (broadcastTo S32x300 (shapeCast S1x300 fb shapeCasts_S300_S1x300 : FVec Ideal S1x300 .f32) broadcasts_S1x300_S32x300))) bitsLt_bf16_f32)
      (shapeCast S300x1 w2 shapeCasts_S300x1_S300x1 : FVec Ideal S300x1 .bf16) (constant S32x1 .f32 0x00000000#32))
    (broadcastTo S32x1 (shapeCast S1x1 b2 shapeCasts_S1_S1x1 : FVec Ideal S1x1 .f32) broadcasts_S1x1_S32x1)

theorem tanh_apply {s : Shape} (x : FVec Ideal s .f32) (i : s.Idx) : tanh x i = Ideal.tanh (x i) := rfl

/-- The first bias as a row, broadcast down the 32 rows, reads the bias of the hidden unit. -/
theorem firstBias_eq (fb : Vec Ideal S300 .f32) (h : S300.ShapeCasts S1x300) (h' : S1x300.Broadcasts S32x300) :
    broadcastTo S32x300 (shapeCast S1x300 fb h : FVec Ideal S1x300 .f32) h' = fun i => fb (ix1 (i 1)) := by
  funext i
  obtain ⟨r, k, rfl⟩ : ∃ (r : Fin 32) (k : Fin 300), i = ix2 r k := ⟨i 0, i 1, eq_ix2 i⟩
  refine (broadcastTo_apply _ h' (ix2 r k) (ix2 (0 : Fin 1) k) (fun a => match a with
    | ⟨0, _⟩ => by show 0 = if (1 : Nat) = 1 then 0 else _; rw [if_pos rfl]
    | ⟨1, _⟩ => by show k.val = if (300 : Nat) = 1 then 0 else k.val; rw [if_neg (by decide)])).trans ?_
  exact shapeCast_a_1a_apply fb h 0 k

/-- The output bias as a [1, 1] value, broadcast down the 32 rows, reads its one entry. -/
theorem outBias_eq (b2 : Vec Ideal S1 .f32) (h : S1.ShapeCasts S1x1) (h' : S1x1.Broadcasts S32x1) :
    broadcastTo S32x1 (shapeCast S1x1 b2 h : FVec Ideal S1x1 .f32) h' = fun _ => b2 (ix1 (0 : Fin 1)) := by
  funext i
  obtain ⟨r, s, rfl⟩ : ∃ (r : Fin 32) (s : Fin 1), i = ix2 r s := ⟨i 0, i 1, eq_ix2 i⟩
  refine (broadcastTo_apply _ h' (ix2 r s) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])).trans ?_
  exact shapeCast_a_1a_apply b2 h 0 0

/-- Entry (r, s) of the perceptron on a block: the specification's hidden units of row r, `tanh`, against the second
    weight, plus the output bias. -/
theorem mlpBlock_apply (u v : FVec Ideal S32x300 .f32) (wa wb : Vec Ideal S300x300 .bf16) (fb : Vec Ideal S300 .f32)
    (w2 : Vec Ideal S300x1 .bf16) (b2 : Vec Ideal S1 .f32) (r : Fin 32) (s : Fin 1) :
    mlpBlock u v wa wb fb w2 b2 (ix2 r s)
      = (∑ k : Fin 300, Ideal.tanh (PairScore.hidden (fun q => u (ix2 r q)) (fun q => v (ix2 r q)) (fun k q => wa (ix2 q k))
            (fun k q => wb (ix2 q k)) (fun k => fb (ix1 k)) k) * w2 (ix2 k s)) + b2 (ix1 (0 : Fin 1)) := by
  unfold mlpBlock PairScore.hidden
  rw [firstBias_eq, outBias_eq, shapeCast_self wa, shapeCast_self wb, shapeCast_self w2, addf_apply, secondLayer_apply]
  simp only [truncf_apply, tanh_apply, addf_apply, firstLayer_apply, subf_apply, mulf_apply]

/-! ## The payloads are these functions -/

theorem pay10_eq (v1 : FVec Ideal S337x300 .bf16) (v3 : FVec Ideal S1x300 .f32) (v65 : Vec Ideal S8x128x337 .f32) :
    k0_pay10 v1 v3 v65 = chunkScores v65 v1 v3 := rfl

theorem pay8_eq (v1 : FVec Ideal S337x300 .bf16) (v3 : FVec Ideal S1x300 .f32) (v45 : Vec Ideal S8x128x337 .f32) :
    k0_pay8 v1 v3 v45 = multiReduction .maximumf [1] S8x300 (chunkScores v45 v1 v3) 0xFF800000#32 reduces_S8x128x300_S8x300 (.inl rfl) rfl := rfl

theorem pay9_eq (v1 : FVec Ideal S337x300 .bf16) (v3 : FVec Ideal S1x300 .f32) (v55 : Vec Ideal S8x128x337 .f32) :
    k0_pay9 v1 v3 v55 = multiReduction .maximumf [1] S8x300 (chunkScores v55 v1 v3) 0xFF800000#32 reduces_S8x128x300_S8x300 (.inl rfl) rfl := rfl

theorem pay4_eq (v0 : Vec Ideal S337x300 .bf16) (v2 : Vec Ideal S300 .f32) (v4 : Vec Ideal S8x128x337 .f32) :
    k0_pay4 v0 v2 v4 = multiReduction .maximumf [1] S8x300 (chunkScores v4 (k0_pay2 v0) (k0_pay3 v2)) 0xFF800000#32 reduces_S8x128x300_S8x300 (.inl rfl) rfl := rfl

theorem pay5_eq (v0 : Vec Ideal S337x300 .bf16) (v2 : Vec Ideal S300 .f32) (v14 : Vec Ideal S8x128x337 .f32) :
    k0_pay5 v0 v2 v14 = multiReduction .maximumf [1] S8x300 (chunkScores v14 (k0_pay2 v0) (k0_pay3 v2)) 0xFF800000#32 reduces_S8x128x300_S8x300 (.inl rfl) rfl := rfl

theorem pay6_eq (v0 : Vec Ideal S337x300 .bf16) (v2 : Vec Ideal S300 .f32) (v24 : Vec Ideal S8x128x337 .f32) :
    k0_pay6 v0 v2 v24 = multiReduction .maximumf [1] S8x300 (chunkScores v24 (k0_pay2 v0) (k0_pay3 v2)) 0xFF800000#32 reduces_S8x128x300_S8x300 (.inl rfl) rfl := rfl

theorem pay7_eq (v1 : FVec Ideal S337x300 .bf16) (v3 : FVec Ideal S1x300 .f32) (v13 v23 v33 : FVec Ideal S8x300 .f32) (v34 : Vec Ideal S8x128x337 .f32) :
    k0_pay7 v1 v3 v13 v23 v33 v34 = concatenate S32x300 0 [⟨S8x300, v13⟩, ⟨S8x300, v23⟩, ⟨S8x300, v33⟩, ⟨S8x300, multiReduction .maximumf [1] S8x300 (chunkScores v34 v1 v3) 0xFF800000#32 reduces_S8x128x300_S8x300 (.inl rfl) rfl⟩] concatenates_S8x300_S8x300_S8x300_S8x300_S32x300_d0 := rfl

theorem pay1_eq (v1 : FVec Ideal S337x300 .bf16) (v3 : FVec Ideal S1x300 .f32) (v44 : FVec Ideal S32x300 .f32) (v54 v64 : FVec Ideal S8x300 .f32)
    (v73 : FVec Ideal S8x128x300 .f32) (v75 : Vec Ideal S8x128x337 .f32) (v90 v92 : Vec Ideal S300x300 .bf16) (v97 : Vec Ideal S300 .f32)
    (v103 : Vec Ideal S300x1 .bf16) (v106 : Vec Ideal S1 .f32) :
    k0_pay1 v1 v3 v44 v54 v64 v73 v75 v90 v92 v97 v103 v106
      = mlpBlock v44 (concatenate S32x300 0 [⟨S8x300, v54⟩, ⟨S8x300, v64⟩, ⟨S8x300, multiReduction .maximumf [1] S8x300 (v73) 0xFF800000#32 reduces_S8x128x300_S8x300 (.inl rfl) rfl⟩, ⟨S8x300, multiReduction .maximumf [1] S8x300 (chunkScores v75 v1 v3) 0xFF800000#32 reduces_S8x128x300_S8x300 (.inl rfl) rfl⟩] concatenates_S8x300_S8x300_S8x300_S8x300_S32x300_d0) v90 v92 v97 v103 v106 := rfl

/-! ## The two encodings of a block -/

/-- The first sentence block's four chunk encodings, stacked: row r holds block row r's encoding. -/
theorem firstEnc_apply (x0 : Vec Ideal S32x128x337 .f32) (v0 : Vec Ideal S337x300 .bf16) (v2 : Vec Ideal S300 .f32) (r : Fin 32) (o : Fin 300) :
    k0_pay7 (k0_pay2 v0) (k0_pay3 v2) (k0_pay4 v0 v2 (View.ld x0 (Rect.unit (s := S32x128x337) ![0, 0, 0] S8x128x337.size inb_S32x128x337_S8x128x337_0_0_0))) (k0_pay5 v0 v2 (View.ld x0 (Rect.unit (s := S32x128x337) ![8, 0, 0] S8x128x337.size inb_S32x128x337_S8x128x337_8_0_0)))
        (k0_pay6 v0 v2 (View.ld x0 (Rect.unit (s := S32x128x337) ![16, 0, 0] S8x128x337.size inb_S32x128x337_S8x128x337_16_0_0))) (View.ld x0 (Rect.unit (s := S32x128x337) ![24, 0, 0] S8x128x337.size inb_S32x128x337_S8x128x337_24_0_0)) (ix2 r o)
      = blockEnc x0 (k0_pay2 v0) (k0_pay3 v2) r o := by
  rw [pay7_eq, pay4_eq, pay5_eq, pay6_eq]
  exact stack4_apply _ _ _ _ _ (blockEnc x0 (k0_pay2 v0) (k0_pay3 v2))
    (fun a o => chunkEnc_apply x0 0 (by omega) _ _ _ _ _ _ a o) (fun a o => chunkEnc_apply x0 8 (by omega) _ _ _ _ _ _ a o)
    (fun a o => chunkEnc_apply x0 16 (by omega) _ _ _ _ _ _ a o) (fun a o => chunkEnc_apply x0 24 (by omega) _ _ _ _ _ _ a o) r o

/-- The second sentence block's four chunk encodings, stacked (the last two reduced where the perceptron begins). -/
theorem secondEnc_apply (x1 : Vec Ideal S32x128x337 .f32) (v1 : FVec Ideal S337x300 .bf16) (v3 : FVec Ideal S1x300 .f32) (r : Fin 32) (o : Fin 300) :
    (concatenate S32x300 0 [⟨S8x300, k0_pay8 v1 v3 (View.ld x1 (Rect.unit (s := S32x128x337) ![0, 0, 0] S8x128x337.size inb_S32x128x337_S8x128x337_0_0_0))⟩, ⟨S8x300, k0_pay9 v1 v3 (View.ld x1 (Rect.unit (s := S32x128x337) ![8, 0, 0] S8x128x337.size inb_S32x128x337_S8x128x337_8_0_0))⟩, ⟨S8x300, multiReduction .maximumf [1] S8x300 (k0_pay10 v1 v3 (View.ld x1 (Rect.unit (s := S32x128x337) ![16, 0, 0] S8x128x337.size inb_S32x128x337_S8x128x337_16_0_0))) 0xFF800000#32 reduces_S8x128x300_S8x300 (.inl rfl) rfl⟩, ⟨S8x300, multiReduction .maximumf [1] S8x300 (chunkScores (View.ld x1 (Rect.unit (s := S32x128x337) ![24, 0, 0] S8x128x337.size inb_S32x128x337_S8x128x337_24_0_0)) v1 v3) 0xFF800000#32 reduces_S8x128x300_S8x300 (.inl rfl) rfl⟩] concatenates_S8x300_S8x300_S8x300_S8x300_S32x300_d0) (ix2 r o)
      = blockEnc x1 v1 v3 r o := by
  rw [pay8_eq, pay9_eq, pay10_eq]
  exact stack4_apply _ _ _ _ _ (blockEnc x1 v1 v3)
    (fun a o => chunkEnc_apply x1 0 (by omega) _ _ _ _ _ _ a o) (fun a o => chunkEnc_apply x1 8 (by omega) _ _ _ _ _ _ a o)
    (fun a o => chunkEnc_apply x1 16 (by omega) _ _ _ _ _ _ a o) (fun a o => chunkEnc_apply x1 24 (by omega) _ _ _ _ _ _ a o) r o

/-- The same as one function of the block index. -/
theorem firstEnc_eq (x0 : Vec Ideal S32x128x337 .f32) (v0 : Vec Ideal S337x300 .bf16) (v2 : Vec Ideal S300 .f32) :
    k0_pay7 (k0_pay2 v0) (k0_pay3 v2) (k0_pay4 v0 v2 (View.ld x0 (Rect.unit (s := S32x128x337) ![0, 0, 0] S8x128x337.size inb_S32x128x337_S8x128x337_0_0_0))) (k0_pay5 v0 v2 (View.ld x0 (Rect.unit (s := S32x128x337) ![8, 0, 0] S8x128x337.size inb_S32x128x337_S8x128x337_8_0_0)))
        (k0_pay6 v0 v2 (View.ld x0 (Rect.unit (s := S32x128x337) ![16, 0, 0] S8x128x337.size inb_S32x128x337_S8x128x337_16_0_0))) (View.ld x0 (Rect.unit (s := S32x128x337) ![24, 0, 0] S8x128x337.size inb_S32x128x337_S8x128x337_24_0_0))
      = fun i => blockEnc x0 (k0_pay2 v0) (k0_pay3 v2) ⟨(i 0).val, (i 0).isLt⟩ ⟨(i 1).val, (i 1).isLt⟩ := by
  funext i
  obtain ⟨r, o, rfl⟩ : ∃ (r : Fin 32) (o : Fin 300), i = ix2 r o := ⟨i 0, i 1, eq_ix2 i⟩
  exact firstEnc_apply x0 v0 v2 r o

theorem secondEnc_eq (x1 : Vec Ideal S32x128x337 .f32) (v1 : FVec Ideal S337x300 .bf16) (v3 : FVec Ideal S1x300 .f32) :
    (concatenate S32x300 0 [⟨S8x300, k0_pay8 v1 v3 (View.ld x1 (Rect.unit (s := S32x128x337) ![0, 0, 0] S8x128x337.size inb_S32x128x337_S8x128x337_0_0_0))⟩, ⟨S8x300, k0_pay9 v1 v3 (View.ld x1 (Rect.unit (s := S32x128x337) ![8, 0, 0] S8x128x337.size inb_S32x128x337_S8x128x337_8_0_0))⟩, ⟨S8x300, multiReduction .maximumf [1] S8x300 (k0_pay10 v1 v3 (View.ld x1 (Rect.unit (s := S32x128x337) ![16, 0, 0] S8x128x337.size inb_S32x128x337_S8x128x337_16_0_0))) 0xFF800000#32 reduces_S8x128x300_S8x300 (.inl rfl) rfl⟩, ⟨S8x300, multiReduction .maximumf [1] S8x300 (chunkScores (View.ld x1 (Rect.unit (s := S32x128x337) ![24, 0, 0] S8x128x337.size inb_S32x128x337_S8x128x337_24_0_0)) v1 v3) 0xFF800000#32 reduces_S8x128x300_S8x300 (.inl rfl) rfl⟩] concatenates_S8x300_S8x300_S8x300_S8x300_S32x300_d0)
      = fun i => blockEnc x1 v1 v3 ⟨(i 0).val, (i 0).isLt⟩ ⟨(i 1).val, (i 1).isLt⟩ := by
  funext i
  obtain ⟨r, o, rfl⟩ : ∃ (r : Fin 32) (o : Fin 300), i = ix2 r o := ⟨i 0, i 1, eq_ix2 i⟩
  exact secondEnc_apply x1 v1 v3 r o

/-! ## The output block -/

/-- Entry (r, s) of the block the body leaves: the score of row r of the two sentence blocks, the convolution weight read
    as [337, 300], the two halves of the first weight as [300, 300] blocks indexed (feature, unit), the second weight as
    [300, 1]. -/
theorem out_apply (x0 x1 : Vec Ideal S32x128x337 .f32) (x2 : Vec Ideal S337x300 .bf16) (x3 : Vec Ideal S300 .f32)
    (x4 x5 : Vec Ideal S300x300 .bf16) (x6 : Vec Ideal S300 .f32) (x7 : Vec Ideal S300x1 .bf16) (x8 : Vec Ideal S1 .f32)
    (r : Fin 32) (s : Fin 1) :
    out0_9 x0 x1 x2 x3 x4 x5 x6 x7 x8 (ix2 r s)
      = score (fun p d => x0 (ix3 r p d)) (fun p d => x1 (ix3 r p d)) (fun o d => x2 (ix2 d o)) (fun o => x3 (ix1 o))
          (fun k q => x4 (ix2 q k)) (fun k q => x5 (ix2 q k)) (fun k => x6 (ix1 k)) (fun k => x7 (ix2 k s)) (x8 (ix1 (0 : Fin 1))) := by
  have hz1 : (![0] : Fin 1 → Nat) = fun _ => 0 := by funext a; fin_cases a; rfl
  have hz2 : (![0, 0] : Fin 2 → Nat) = fun _ => 0 := by funext a; fin_cases a <;> rfl
  have hrow : k0_pay3 x3 = fun i => x3 (ix1 (i 1)) := by
    funext i
    obtain ⟨u, o, rfl⟩ : ∃ (u : Fin 1) (o : Fin 300), i = ix2 u o := ⟨i 0, i 1, eq_ix2 i⟩
    exact shapeCast_a_1a_apply x3 _ u o
  unfold out0_9
  rw [View.canon_unit_zero hz2, pay1_eq, firstEnc_eq, secondEnc_eq,
    View.ld_unit_zero hz2 _ x2, View.ld_unit_zero hz1 _ x3, View.ld_unit_zero hz2 _ x4, View.ld_unit_zero hz2 _ x5,
    View.ld_unit_zero hz1 _ x6, View.ld_unit_zero hz2 _ x7, View.ld_unit_zero hz1 _ x8,
    show k0_pay2 x2 = x2 from shapeCast_self x2 _, hrow, mlpBlock_apply]
  rfl

end Cert.KernelIdeal.Body

end
-- ==== Proof.KernelValue.lean ====
/-
  The kernel's result array, whole: it is the specification `G` of the argument arrays.

  The grid has 16 points; point t works on rows 32·t … 32·t + 31 of the two sentence arrays and writes rows
  32·t … 32·t + 31 of the [512, 1] result, and every point sees the same parameter arrays whole. The parameters reach the
  kernel re-laid by the host operations before it — the convolution weight transposed, the first weight cut into its
  left and right halves and each transposed, the second weight transposed (the conversions to a narrower float format
  are the identity on the extended reals) — so a parameter block entry read by the body is the argument's entry at the
  transposed, shifted position. With the body's block (`Body.out_apply`) this makes what point t writes back block t of
  `G`; the 16 blocks cover the result, so the array is `G`.
-/
import proofs.«173753_j30846455120276_2_alg».proof.Proof.Body
import proofs.«173753_j30846455120276_2_alg».proof.Proof.Gen.KernelIdeal.Value
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.PairScore Idealize.ShloMosaic.StableHlo
open Idealize.ShloMosaic.Pipeline (Dat)

variable (m : (ℓ : Loc nD τ sig) → Buf (Elt Ideal) ℓ) (ρ : Dev nD → PrngReg)

/-! ## The parameter arrays as the kernel finds them -/

/-- The convolution weight reaches the kernel transposed. -/
theorem convWeight_entry (c : Dev nD) : (V m c main_v1 : S337x300.Idx → EReal)
    = (truncf .bf16 (transpose S337x300 [1, 0] (m ((c : Thread nD τ).loc main_arg2)) transposes_S300x337_S337x300_1_0) bitsLt_bf16_f32 : FVec Ideal S337x300 .bf16) := by
  dsimp only [Gen.V, Gen.hostOps0]; after_results

/-- The left half of the first weight reaches the kernel transposed. -/
theorem firstLeft_entry (c : Dev nD) : (V m c main_v4 : S300x300.Idx → EReal)
    = (truncf .bf16 (transpose S300x300 [1, 0] (extractStridedSlice S300x300 ![0, 0] (m ((c : Thread nD τ).loc main_arg4)) slices_S300x600_S300x300_0_0)
        transposes_S300x300_S300x300_1_0) bitsLt_bf16_f32 : FVec Ideal S300x300 .bf16) := by
  dsimp only [Gen.V, Gen.hostOps0]; after_results

/-- The right half of the first weight reaches the kernel transposed. -/
theorem firstRight_entry (c : Dev nD) : (V m c main_v7 : S300x300.Idx → EReal)
    = (truncf .bf16 (transpose S300x300 [1, 0] (extractStridedSlice S300x300 ![0, 300] (m ((c : Thread nD τ).loc main_arg4)) slices_S300x600_S300x300_0_300)
        transposes_S300x300_S300x300_1_0) bitsLt_bf16_f32 : FVec Ideal S300x300 .bf16) := by
  dsimp only [Gen.V, Gen.hostOps0]; after_results

/-- The second weight reaches the kernel transposed. -/
theorem secondWeight_entry (c : Dev nD) : (V m c main_v9 : S300x1.Idx → EReal)
    = (truncf .bf16 (transpose S300x1 [1, 0] (m ((c : Thread nD τ).loc main_arg6)) transposes_S1x300_S300x1_1_0) bitsLt_bf16_f32 : FVec Ideal S300x1 .bf16) := by
  dsimp only [Gen.V, Gen.hostOps0]; after_results

/-! ## The blocks -/

/-- The printed index maps over the 16 grid points: the two sentence windows and the result window move together along
    the rows; every parameter window stays at block 0. -/
theorem idx_facts : ∀ t : Fin cfg0.N,
    win0_0.index t (0 : Fin 3) = win0_9.index t (0 : Fin 2) ∧ win0_0.index t (1 : Fin 3) = 0 ∧ win0_0.index t (2 : Fin 3) = 0
    ∧ win0_1.index t (0 : Fin 3) = win0_9.index t (0 : Fin 2) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (1 : Fin 2) = 0 ∧ win0_9.index t (0 : Fin 2) ≤ 15 :=
  (by decide +kernel : ∀ t : Fin grid0.N, _)

/-- Every block row of the result is some point's. -/
theorem idx_onto : ∀ q : Fin 16, ∃ t : Fin cfg0.N, win0_9.index t (0 : Fin 2) = q.val :=
  (by decide +kernel : ∀ q : Fin 16, ∃ t : Fin grid0.N, win0_9.index t (0 : Fin 2) = q.val)

/-- Row a of the first sentence block at point t is row (block row)·32 + a of the first sentence array. -/
theorem sentence0_apply (c : Dev nD) (t : Fin cfg0.N) (a : Fin 32) (p : Fin 128) (d : Fin 337) (R : Fin 512)
    (hR : R.val = win0_9.index t (0 : Fin 2) * 32 + a.val) :
    iblk m c 0 t (ix3 a p d) = (m ((c : Thread nD τ).loc main_arg0)) (ix3 R p d) := by
  obtain ⟨e0, e1, e2, -⟩ := idx_facts t
  show V m c main_arg0 (((cfg0.win 0).blk t).view.emb (ix3 a p d)) = _
  rw [V_main_arg0]
  refine congrArg _ (funext fun b => Fin.ext ?_)
  match b with
  | ⟨0, _⟩ => show win0_0.index t (0 : Fin 3) * 32 + 1 * a.val = R.val; omega
  | ⟨1, _⟩ => show win0_0.index t (1 : Fin 3) * 128 + 1 * p.val = p.val; omega
  | ⟨2, _⟩ => show win0_0.index t (2 : Fin 3) * 337 + 1 * d.val = d.val; omega

/-- The same for the second sentence. -/
theorem sentence1_apply (c : Dev nD) (t : Fin cfg0.N) (a : Fin 32) (p : Fin 128) (d : Fin 337) (R : Fin 512)
    (hR : R.val = win0_9.index t (0 : Fin 2) * 32 + a.val) :
    iblk m c 1 t (ix3 a p d) = (m ((c : Thread nD τ).loc main_arg1)) (ix3 R p d) := by
  obtain ⟨-, -, -, e0, e1, e2, -⟩ := idx_facts t
  show V m c main_arg1 (((cfg0.win 1).blk t).view.emb (ix3 a p d)) = _
  rw [V_main_arg1]
  refine congrArg _ (funext fun b => Fin.ext ?_)
  match b with
  | ⟨0, _⟩ => show win0_1.index t (0 : Fin 3) * 32 + 1 * a.val = R.val; omega
  | ⟨1, _⟩ => show win0_1.index t (1 : Fin 3) * 128 + 1 * p.val = p.val; omega
  | ⟨2, _⟩ => show win0_1.index t (2 : Fin 3) * 337 + 1 * d.val = d.val; omega

/-- The convolution weight block at (feature, output) is the argument at (output, feature). -/
theorem convWeight_apply (c : Dev nD) (t : Fin cfg0.N) (d : Fin 337) (o : Fin 300) :
    iblk m c 2 t (ix2 d o) = (m ((c : Thread nD τ).loc main_arg2)) (ix2 o d) := by
  obtain ⟨-, -, -, -, -, -, e0, e1, -⟩ := idx_facts t
  show V m c main_v1 (((cfg0.win 2).blk t).view.emb (ix2 d o)) = _
  refine (congrFun (convWeight_entry m c) _).trans ?_
  refine transpose_apply [1, 0] _ transposes_S300x337_S337x300_1_0 _ (ix2 o d) (fun b => ?_)
  match b with
  | ⟨0, _⟩ => show d.val = win0_2.index t (0 : Fin 2) * 337 + 1 * d.val; omega
  | ⟨1, _⟩ => show o.val = win0_2.index t (1 : Fin 2) * 300 + 1 * o.val; omega

/-- The convolution bias block is the argument. -/
theorem convBias_apply (c : Dev nD) (t : Fin cfg0.N) (o : Fin 300) :
    iblk m c 3 t (ix1 o) = (m ((c : Thread nD τ).loc main_arg3)) (ix1 o) := by
  obtain ⟨-, -, -, -, -, -, -, -, e0, -⟩ := idx_facts t
  show V m c main_arg3 (((cfg0.win 3).blk t).view.emb (ix1 o)) = _
  rw [V_main_arg3]
  refine congrArg _ (funext fun b => Fin.ext ?_)
  match b with
  | ⟨0, _⟩ => show win0_3.index t (0 : Fin 1) * 300 + 1 * o.val = o.val; omega

/-- The left first-weight block at (feature, unit) is the argument at (unit, feature). -/
theorem firstLeft_apply (c : Dev nD) (t : Fin cfg0.N) (q k : Fin 300) :
    iblk m c 4 t (ix2 q k) = (m ((c : Thread nD τ).loc main_arg4)) (ix2 k (⟨q.val, by omega⟩ : Fin 600)) := by
  obtain ⟨-, -, -, -, -, -, -, -, -, e0, e1, -⟩ := idx_facts t
  show V m c main_v4 (((cfg0.win 4).blk t).view.emb (ix2 q k)) = _
  refine (congrFun (firstLeft_entry m c) _).trans ?_
  show transpose S300x300 [1, 0] (extractStridedSlice S300x300 ![0, 0] (m ((c : Thread nD τ).loc main_arg4)) slices_S300x600_S300x300_0_0) transposes_S300x300_S300x300_1_0 _ = _
  refine (transpose_apply [1, 0] _ transposes_S300x300_S300x300_1_0 _ (ix2 k q) (fun b => ?_)).trans ?_
  · match b with
    | ⟨0, _⟩ => show q.val = win0_4.index t (0 : Fin 2) * 300 + 1 * q.val; omega
    | ⟨1, _⟩ => show k.val = win0_4.index t (1 : Fin 2) * 300 + 1 * k.val; omega
  · refine extractStridedSlice_apply (s := S300x600) (t := S300x300) ![0, 0] (m ((c : Thread nD τ).loc main_arg4)) slices_S300x600_S300x300_0_0 (ix2 k q) (ix2 k (⟨q.val, by omega⟩ : Fin 600)) (fun b => ?_)
    match b with
    | ⟨0, _⟩ => show k.val = 0 + k.val; omega
    | ⟨1, _⟩ => show q.val = 0 + q.val; omega

/-- The right first-weight block at (feature, unit) is the argument at (unit, 300 + feature). -/
theorem firstRight_apply (c : Dev nD) (t : Fin cfg0.N) (q k : Fin 300) :
    iblk m c 5 t (ix2 q k) = (m ((c : Thread nD τ).loc main_arg4)) (ix2 k (⟨300 + q.val, by omega⟩ : Fin 600)) := by
  obtain ⟨-, -, -, -, -, -, -, -, -, -, -, e0, e1, -⟩ := idx_facts t
  show V m c main_v7 (((cfg0.win 5).blk t).view.emb (ix2 q k)) = _
  refine (congrFun (firstRight_entry m c) _).trans ?_
  show transpose S300x300 [1, 0] (extractStridedSlice S300x300 ![0, 300] (m ((c : Thread nD τ).loc main_arg4)) slices_S300x600_S300x300_0_300) transposes_S300x300_S300x300_1_0 _ = _
  refine (transpose_apply [1, 0] _ transposes_S300x300_S300x300_1_0 _ (ix2 k q) (fun b => ?_)).trans ?_
  · match b with
    | ⟨0, _⟩ => show q.val = win0_5.index t (0 : Fin 2) * 300 + 1 * q.val; omega
    | ⟨1, _⟩ => show k.val = win0_5.index t (1 : Fin 2) * 300 + 1 * k.val; omega
  · refine extractStridedSlice_apply (s := S300x600) (t := S300x300) ![0, 300] (m ((c : Thread nD τ).loc main_arg4)) slices_S300x600_S300x300_0_300 (ix2 k q) (ix2 k (⟨300 + q.val, by omega⟩ : Fin 600)) (fun b => ?_)
    match b with
    | ⟨0, _⟩ => show k.val = 0 + k.val; omega
    | ⟨1, _⟩ => show 300 + q.val = 300 + q.val; rfl

/-- The first bias block is the argument. -/
theorem firstBias_apply (c : Dev nD) (t : Fin cfg0.N) (k : Fin 300) :
    iblk m c 6 t (ix1 k) = (m ((c : Thread nD τ).loc main_arg5)) (ix1 k) := by
  obtain ⟨-, -, -, -, -, -, -, -, -, -, -, -, -, e0, -⟩ := idx_facts t
  show V m c main_arg5 (((cfg0.win 6).blk t).view.emb (ix1 k)) = _
  rw [V_main_arg5]
  refine congrArg _ (funext fun b => Fin.ext ?_)
  match b with
  | ⟨0, _⟩ => show win0_6.index t (0 : Fin 1) * 300 + 1 * k.val = k.val; omega

/-- The second weight block at (unit, 0) is the argument at (0, unit). -/
theorem secondWeight_apply (c : Dev nD) (t : Fin cfg0.N) (k : Fin 300) (s : Fin 1) :
    iblk m c 7 t (ix2 k s) = (m ((c : Thread nD τ).loc main_arg6)) (ix2 (0 : Fin 1) k) := by
  obtain ⟨-, -, -, -, -, -, -, -, -, -, -, -, -, -, e0, e1, -⟩ := idx_facts t
  show V m c main_v9 (((cfg0.win 7).blk t).view.emb (ix2 k s)) = _
  refine (congrFun (secondWeight_entry m c) _).trans ?_
  refine transpose_apply [1, 0] _ transposes_S1x300_S300x1_1_0 _ (ix2 (0 : Fin 1) k) (fun b => ?_)
  match b with
  | ⟨0, _⟩ => show k.val = win0_7.index t (0 : Fin 2) * 300 + 1 * k.val; omega
  | ⟨1, _⟩ => show 0 = win0_7.index t (1 : Fin 2) * 1 + 1 * s.val; omega

/-- The output bias block is the argument. -/
theorem outBias_apply (c : Dev nD) (t : Fin cfg0.N) :
    iblk m c 8 t (ix1 (0 : Fin 1)) = (m ((c : Thread nD τ).loc main_arg7)) (ix1 (0 : Fin 1)) := by
  obtain ⟨-, -, -, -, -, -, -, -, -, -, -, -, -, -, -, -, e0, -⟩ := idx_facts t
  show V m c main_arg7 (((cfg0.win 8).blk t).view.emb (ix1 (0 : Fin 1))) = _
  rw [V_main_arg7]
  refine congrArg _ (funext fun b => Fin.ext ?_)
  match b with
  | ⟨0, _⟩ => show win0_8.index t (0 : Fin 1) * 1 + 1 * 0 = 0; omega

/-! ## The blocks as functions of the block index -/

/-- The array row that row a of point t's sentence blocks (and of its result block) is: 32 rows per point. -/
def rowOf (t : Fin cfg0.N) (a : Fin 32) : Fin 512 :=
  ⟨win0_9.index t (0 : Fin 2) * 32 + a.val, by
    obtain ⟨-, -, -, -, -, -, -, -, -, -, -, -, -, -, -, -, -, -, e⟩ := idx_facts t
    have := a.isLt; omega⟩

theorem sentence0_blk (c : Dev nD) (t : Fin cfg0.N) :
    iblk m c 0 t = fun (y : S32x128x337.Idx) => (m ((c : Thread nD τ).loc main_arg0)) (ix3 (rowOf t ⟨(y 0).val, (y 0).isLt⟩) ⟨(y 1).val, (y 1).isLt⟩ ⟨(y 2).val, (y 2).isLt⟩) := by
  funext y
  obtain ⟨a, p, d, rfl⟩ : ∃ (a : Fin 32) (p : Fin 128) (d : Fin 337), y = ix3 a p d := ⟨y 0, y 1, y 2, eq_ix3 y⟩
  exact sentence0_apply m c t a p d (rowOf t a) rfl

theorem sentence1_blk (c : Dev nD) (t : Fin cfg0.N) :
    iblk m c 1 t = fun (y : S32x128x337.Idx) => (m ((c : Thread nD τ).loc main_arg1)) (ix3 (rowOf t ⟨(y 0).val, (y 0).isLt⟩) ⟨(y 1).val, (y 1).isLt⟩ ⟨(y 2).val, (y 2).isLt⟩) := by
  funext y
  obtain ⟨a, p, d, rfl⟩ : ∃ (a : Fin 32) (p : Fin 128) (d : Fin 337), y = ix3 a p d := ⟨y 0, y 1, y 2, eq_ix3 y⟩
  exact sentence1_apply m c t a p d (rowOf t a) rfl

theorem convWeight_blk (c : Dev nD) (t : Fin cfg0.N) :
    iblk m c 2 t = fun (y : S337x300.Idx) => (m ((c : Thread nD τ).loc main_arg2)) (ix2 ⟨(y 1).val, (y 1).isLt⟩ ⟨(y 0).val, (y 0).isLt⟩) := by
  funext y
  obtain ⟨d, o, rfl⟩ : ∃ (d : Fin 337) (o : Fin 300), y = ix2 d o := ⟨y 0, y 1, eq_ix2 y⟩
  exact convWeight_apply m c t d o

theorem convBias_blk (c : Dev nD) (t : Fin cfg0.N) :
    iblk m c 3 t = fun (y : S300.Idx) => (m ((c : Thread nD τ).loc main_arg3)) (ix1 ⟨(y 0).val, (y 0).isLt⟩) := by
  funext y
  obtain ⟨o, rfl⟩ : ∃ o : Fin 300, y = ix1 o := ⟨y 0, eq_ix1 y⟩
  exact convBias_apply m c t o

theorem firstLeft_blk (c : Dev nD) (t : Fin cfg0.N) :
    iblk m c 4 t = fun (y : S300x300.Idx) => (m ((c : Thread nD τ).loc main_arg4)) (ix2 ⟨(y 1).val, (y 1).isLt⟩ (⟨(y 0).val, by have := idx2_lt0 y; omega⟩ : Fin 600)) := by
  funext y
  obtain ⟨q, k, rfl⟩ : ∃ (q k : Fin 300), y = ix2 q k := ⟨y 0, y 1, eq_ix2 y⟩
  exact firstLeft_apply m c t q k

theorem firstRight_blk (c : Dev nD) (t : Fin cfg0.N) :
    iblk m c 5 t = fun (y : S300x300.Idx) => (m ((c : Thread nD τ).loc main_arg4)) (ix2 ⟨(y 1).val, (y 1).isLt⟩ (⟨300 + (y 0).val, by have := idx2_lt0 y; omega⟩ : Fin 600)) := by
  funext y
  obtain ⟨q, k, rfl⟩ : ∃ (q k : Fin 300), y = ix2 q k := ⟨y 0, y 1, eq_ix2 y⟩
  exact firstRight_apply m c t q k

theorem firstBias_blk (c : Dev nD) (t : Fin cfg0.N) :
    iblk m c 6 t = fun (y : S300.Idx) => (m ((c : Thread nD τ).loc main_arg5)) (ix1 ⟨(y 0).val, (y 0).isLt⟩) := by
  funext y
  obtain ⟨k, rfl⟩ : ∃ k : Fin 300, y = ix1 k := ⟨y 0, eq_ix1 y⟩
  exact firstBias_apply m c t k

theorem secondWeight_blk (c : Dev nD) (t : Fin cfg0.N) :
    iblk m c 7 t = fun (y : S300x1.Idx) => (m ((c : Thread nD τ).loc main_arg6)) (ix2 (0 : Fin 1) ⟨(y 0).val, (y 0).isLt⟩) := by
  funext y
  obtain ⟨k, s, rfl⟩ : ∃ (k : Fin 300) (s : Fin 1), y = ix2 k s := ⟨y 0, y 1, eq_ix2 y⟩
  exact secondWeight_apply m c t k s

theorem outBias_blk (c : Dev nD) (t : Fin cfg0.N) :
    iblk m c 8 t = fun (_ : S1.Idx) => (m ((c : Thread nD τ).loc main_arg7)) (ix1 (0 : Fin 1)) := by
  funext y
  obtain ⟨u, rfl⟩ : ∃ u : Fin 1, y = ix1 u := ⟨y 0, eq_ix1 y⟩
  have hu : u = 0 := Subsingleton.elim _ _
  subst hu
  exact outBias_apply m c t

/-! ## What a point writes back, and the whole array -/

/-- The body's block at any index of the block (the index split into its row and its one column). -/
theorem out_at (x0 x1 : Vec Ideal S32x128x337 .f32) (x2 : Vec Ideal S337x300 .bf16) (x3 : Vec Ideal S300 .f32)
    (x4 x5 : Vec Ideal S300x300 .bf16) (x6 : Vec Ideal S300 .f32) (x7 : Vec Ideal S300x1 .bf16) (x8 : Vec Ideal S1 .f32)
    (y : S32x1.Idx) :
    out0_9 x0 x1 x2 x3 x4 x5 x6 x7 x8 y
      = score (fun p d => x0 (ix3 (⟨(y 0).val, (y 0).isLt⟩ : Fin 32) p d)) (fun p d => x1 (ix3 (⟨(y 0).val, (y 0).isLt⟩ : Fin 32) p d))
          (fun o d => x2 (ix2 d o)) (fun o => x3 (ix1 o)) (fun k q => x4 (ix2 q k)) (fun k q => x5 (ix2 q k)) (fun k => x6 (ix1 k))
          (fun k => x7 (ix2 k (⟨(y 1).val, (y 1).isLt⟩ : Fin 1))) (x8 (ix1 (0 : Fin 1))) := by
  obtain ⟨r, s, rfl⟩ : ∃ (r : Fin 32) (s : Fin 1), y = ix2 r s := ⟨y 0, y 1, eq_ix2 y⟩
  exact Body.out_apply x0 x1 x2 x3 x4 x5 x6 x7 x8 r s

/-- What point t writes back is block t of `G` of the argument arrays. -/
theorem flushed_eq (c : Dev nD) (t : Fin cfg0.N) :
    (dats m 0 c).flushed 9 t = ((cfg0.win 9).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed9, sentence0_blk m c t, sentence1_blk m c t, convWeight_blk m c t, convBias_blk m c t, firstLeft_blk m c t,
    firstRight_blk m c t, firstBias_blk m c t, secondWeight_blk m c t, outBias_blk m c t]
  funext y
  refine (out_at _ _ _ _ _ _ _ _ _ y).trans ?_
  show _ = G _ _ _ _ _ _ _ _ (((cfg0.win 9).blk t).view.emb y)
  unfold G
  have hrow : (((cfg0.win 9).blk t).view.emb y) 0 = rowOf t ⟨(y 0).val, (y 0).isLt⟩ := Fin.ext (by
    show win0_9.index t (0 : Fin 2) * 32 + 1 * (y 0).val = win0_9.index t (0 : Fin 2) * 32 + (y 0).val
    omega)
  rw [hrow]

/-- An index of the result is in point t's block iff its row is in the block's 32 rows. -/
theorem mem_blk (t : Fin cfg0.N) (i : S512x1.Idx) :
    i ∈ ((cfg0.win 9).blk t).view.set ↔ ∀ a : Fin 2, win0_9.index t a * S32x1.size a ≤ (i a).val ∧ (i a).val < win0_9.index t a * S32x1.size a + S32x1.size a := by
  show i ∈ ((View.whole main_v10).slice (win0_9.rect t)).set ↔ _
  rw [View.set_slice_whole, Rect.mem_set_unit]
  exact Iff.rfl

/-- Every index of the result lies in some point's block: row R in the block of point R / 32. -/
theorem cover (i : S512x1.Idx) : ∃ t : Fin cfg0.N, (cfg0.win 9).flush t = true ∧ i ∈ ((cfg0.win 9).blk t).view.set := by
  have hi0 : (i 0).val < 512 := (i 0).isLt
  have hi1 : (i 1).val < 1 := (i 1).isLt
  obtain ⟨t, ht⟩ := idx_onto ⟨(i 0).val / 32, by omega⟩
  have q0 : win0_9.index t (0 : Fin 2) = (i 0).val / 32 := ht
  obtain ⟨-, -, -, -, -, -, -, -, -, -, -, -, -, -, -, -, -, e91, -⟩ := idx_facts t
  refine ⟨t, flush0_9 t, ?_⟩
  rw [mem_blk]
  intro a
  match a with
  | ⟨0, _⟩ => show win0_9.index t (0 : Fin 2) * 32 ≤ (i 0).val ∧ (i 0).val < win0_9.index t (0 : Fin 2) * 32 + 32; omega
  | ⟨1, _⟩ => show win0_9.index t (1 : Fin 2) * 1 ≤ (i 1).val ∧ (i 1).val < win0_9.index t (1 : Fin 2) * 1 + 1; omega

/-- The result array after the run is `G` of the argument arrays. -/
theorem final (c : Dev nD) : (dats m 0 c).arrAt 9 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 9 _ (fun t _ => flushed_eq m c t) cover

/-- The kernel's run, read: the result at `G` of the arguments, the arguments unchanged. -/
theorem run : θ_run defs (onTc (τ := τ) (main (F := Ideal))) ⟨m, fun _ => 0, ρ⟩ fun r => ∀ c : Dev nD,
      r.2.mem ((c : Thread nD τ).loc main_v10) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.ReferenceRun.lean ====
/-
  The reference program's run, read back as a value: it is a straight line of 32 host operations, so every weakly fair
  execution ends with each buffer at the composition of the operations that wrote it. The result buffer holds
  `score`: a sentence encoder `encode` (affine word scores, rectified, the largest over the words) applied to both
  sentence arrays, the difference and the product of the two encodings laid side by side, and a two-layer perceptron
  with `tanh` on top.
-/
import proofs.«173753_j30846455120276_2_alg».proof.ReferenceIdeal
import proofs.«173753_j30846455120276_2_alg».proof.Proof.Gen.ReferenceIdeal
import Idealize.ShloMosaic.Lib.StableHlo.Run

noncomputable section

namespace Cert.ReferenceIdeal.ReadBack

open Cert.ReferenceIdeal Cert.ReferenceIdeal.Gen Idealize.ShloMosaic Idealize.ShloMosaic.TcCoe Idealize.SL.Sem Idealize.ShloMosaic.StableHlo

variable {F : FTy → Type} [FloatOps F]

/-- The 600 features of every row: the differences and the products of the two encodings, side by side. -/
def joinFeatures (a b : FVec F S512x300 .f32) : FVec F S512x600 .f32 :=
  concatenate S512x600 1 [⟨S512x300, a⟩, ⟨S512x300, b⟩] concatenates_S512x300_S512x300_S512x600_d1

/-- A sentence array's encoding, [512, 300]: per row and output feature the largest, over the 128 words, of the
    rectified affine score of the word. -/
def encode (x : FVec F S512x128x337 .f32) (cw : FVec F S300x337 .f32) (cb : FVec F S300 .f32) : FVec F S512x300 .f32 :=
  Host.reduce FloatOps.maximumf
    (maximumf (addf (Host.dotGeneral dot_S512x128x337_S300x337_S512x128x300_2_1_01_0_n_n none x cw)
        (broadcastInDim S512x128x300 ![0, 1, 2] bcast_S1x1x300_S512x128x300_0_1_2 (broadcastInDim S1x1x300 ![2] bcast_S300_S1x1x300_2 cb)))
      (broadcastInDim S512x128x300 ![] bcast_S_S512x128x300 (constant S_ .f32 0x00000000#32)))
    (constant S_ .f32 0xFF800000#32) reducesTo_S512x128x300_S512x300_d1 h_S_

/-- The hidden layer, [512, 300]: `tanh` of the features against the transposed first weight, plus its bias. -/
def hiddenLayer (u v : FVec F S512x300 .f32) (f1w : FVec F S300x600 .f32) (f1b : FVec F S300 .f32) : FVec F S512x300 .f32 :=
  Host.tanh (addf (Host.dotGeneral dot_S512x600_S600x300_S512x300_1_0_0_1_n_n none (joinFeatures (subf u v) (mulf u v))
      (transpose S600x300 [1, 0] f1w transposes_S300x600_S600x300_1_0))
    (broadcastInDim S512x300 ![0, 1] bcast_S1x300_S512x300_0_1 (broadcastInDim S1x300 ![1] bcast_S300_S1x300_1 f1b)))

/-- The result, [512, 1], as a function of the eight arguments. -/
def score (x0 x1 : FVec F S512x128x337 .f32) (cw : FVec F S300x337 .f32) (cb : FVec F S300 .f32) (f1w : FVec F S300x600 .f32)
    (f1b : FVec F S300 .f32) (f2w : FVec F S1x300 .f32) (f2b : FVec F S1 .f32) : FVec F S512x1 .f32 :=
  addf (Host.dotGeneral dot_S512x300_S300x1_S512x1_1_0_0_1_n_n none (hiddenLayer (encode x0 cw cb) (encode x1 cw cb) f1w f1b)
      (transpose S300x1 [1, 0] f2w transposes_S1x300_S300x1_1_0))
    (broadcastInDim S512x1 ![0, 1] bcast_S1x1_S512x1_0_1 (broadcastInDim S1x1 ![1] bcast_S1_S1x1_1 f2b))

abbrev ops : List (HloOp τ sig (Elt F)) :=
  [ binary main_arg0 main_arg2 main_v0 ((fun l r => Host.dotGeneral dot_S512x128x337_S300x337_S512x128x300_2_1_01_0_n_n none l r) : (⟨S512x128x337, .f32⟩ : BufTy).Contents (Elt F) → (⟨S300x337, .f32⟩ : BufTy).Contents (Elt F) → (⟨S512x128x300, .f32⟩ : BufTy).Contents (Elt F)),
    unary main_arg3 main_v1 (broadcastInDim S1x1x300 ![2] bcast_S300_S1x1x300_2 : (⟨S300, .f32⟩ : BufTy).Contents (Elt F) → (⟨S1x1x300, .f32⟩ : BufTy).Contents (Elt F)),
    unary main_v1 main_v2 (broadcastInDim S512x128x300 ![0, 1, 2] bcast_S1x1x300_S512x128x300_0_1_2 : (⟨S1x1x300, .f32⟩ : BufTy).Contents (Elt F) → (⟨S512x128x300, .f32⟩ : BufTy).Contents (Elt F)),
    binary main_v0 main_v2 main_v3 (addf : (⟨S512x128x300, .f32⟩ : BufTy).Contents (Elt F) → (⟨S512x128x300, .f32⟩ : BufTy).Contents (Elt F) → (⟨S512x128x300, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S512x128x300, .f32⟩) main_call0_v0) (broadcastInDim S512x128x300 ![] bcast_S_S512x128x300),
    TRef.binary (TRef.of (T := ⟨S512x128x300, .f32⟩) main_v3) (TRef.of (T := ⟨S512x128x300, .f32⟩) main_call0_v0) (TRef.of (T := ⟨S512x128x300, .f32⟩) main_v4) maximumf,
    nullary main_cst (constant S_ .f32 0xFF800000#32),
    binary main_v4 main_cst main_v5 ((fun x v => Host.reduce FloatOps.maximumf x v reducesTo_S512x128x300_S512x300_d1 h_S_) : (⟨S512x128x300, .f32⟩ : BufTy).Contents (Elt F) → (⟨S_, .f32⟩ : BufTy).Contents (Elt F) → (⟨S512x300, .f32⟩ : BufTy).Contents (Elt F)),
    binary main_arg1 main_arg2 main_v6 ((fun l r => Host.dotGeneral dot_S512x128x337_S300x337_S512x128x300_2_1_01_0_n_n none l r) : (⟨S512x128x337, .f32⟩ : BufTy).Contents (Elt F) → (⟨S300x337, .f32⟩ : BufTy).Contents (Elt F) → (⟨S512x128x300, .f32⟩ : BufTy).Contents (Elt F)),
    unary main_arg3 main_v7 (broadcastInDim S1x1x300 ![2] bcast_S300_S1x1x300_2 : (⟨S300, .f32⟩ : BufTy).Contents (Elt F) → (⟨S1x1x300, .f32⟩ : BufTy).Contents (Elt F)),
    unary main_v7 main_v8 (broadcastInDim S512x128x300 ![0, 1, 2] bcast_S1x1x300_S512x128x300_0_1_2 : (⟨S1x1x300, .f32⟩ : BufTy).Contents (Elt F) → (⟨S512x128x300, .f32⟩ : BufTy).Contents (Elt F)),
    binary main_v6 main_v8 main_v9 (addf : (⟨S512x128x300, .f32⟩ : BufTy).Contents (Elt F) → (⟨S512x128x300, .f32⟩ : BufTy).Contents (Elt F) → (⟨S512x128x300, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S512x128x300, .f32⟩) main_call1_v0) (broadcastInDim S512x128x300 ![] bcast_S_S512x128x300),
    TRef.binary (TRef.of (T := ⟨S512x128x300, .f32⟩) main_v9) (TRef.of (T := ⟨S512x128x300, .f32⟩) main_call1_v0) (TRef.of (T := ⟨S512x128x300, .f32⟩) main_v10) maximumf,
    nullary main_cst_0 (constant S_ .f32 0xFF800000#32),
    binary main_v10 main_cst_0 main_v11 ((fun x v => Host.reduce FloatOps.maximumf x v reducesTo_S512x128x300_S512x300_d1 h_S_) : (⟨S512x128x300, .f32⟩ : BufTy).Contents (Elt F) → (⟨S_, .f32⟩ : BufTy).Contents (Elt F) → (⟨S512x300, .f32⟩ : BufTy).Contents (Elt F)),
    binary main_v5 main_v11 main_v12 (subf : (⟨S512x300, .f32⟩ : BufTy).Contents (Elt F) → (⟨S512x300, .f32⟩ : BufTy).Contents (Elt F) → (⟨S512x300, .f32⟩ : BufTy).Contents (Elt F)),
    binary main_v5 main_v11 main_v13 (mulf : (⟨S512x300, .f32⟩ : BufTy).Contents (Elt F) → (⟨S512x300, .f32⟩ : BufTy).Contents (Elt F) → (⟨S512x300, .f32⟩ : BufTy).Contents (Elt F)),
    binary main_v12 main_v13 main_v14 (joinFeatures : (⟨S512x300, .f32⟩ : BufTy).Contents (Elt F) → (⟨S512x300, .f32⟩ : BufTy).Contents (Elt F) → (⟨S512x600, .f32⟩ : BufTy).Contents (Elt F)),
    unary main_arg4 main_v15 ((transpose S600x300 [1, 0] · transposes_S300x600_S600x300_1_0) : (⟨S300x600, .f32⟩ : BufTy).Contents (Elt F) → (⟨S600x300, .f32⟩ : BufTy).Contents (Elt F)),
    binary main_v14 main_v15 main_v16 ((fun l r => Host.dotGeneral dot_S512x600_S600x300_S512x300_1_0_0_1_n_n none l r) : (⟨S512x600, .f32⟩ : BufTy).Contents (Elt F) → (⟨S600x300, .f32⟩ : BufTy).Contents (Elt F) → (⟨S512x300, .f32⟩ : BufTy).Contents (Elt F)),
    unary main_arg5 main_v17 (broadcastInDim S1x300 ![1] bcast_S300_S1x300_1 : (⟨S300, .f32⟩ : BufTy).Contents (Elt F) → (⟨S1x300, .f32⟩ : BufTy).Contents (Elt F)),
    unary main_v17 main_v18 (broadcastInDim S512x300 ![0, 1] bcast_S1x300_S512x300_0_1 : (⟨S1x300, .f32⟩ : BufTy).Contents (Elt F) → (⟨S512x300, .f32⟩ : BufTy).Contents (Elt F)),
    binary main_v16 main_v18 main_v19 (addf : (⟨S512x300, .f32⟩ : BufTy).Contents (Elt F) → (⟨S512x300, .f32⟩ : BufTy).Contents (Elt F) → (⟨S512x300, .f32⟩ : BufTy).Contents (Elt F)),
    unary main_v19 main_v20 (Host.tanh : (⟨S512x300, .f32⟩ : BufTy).Contents (Elt F) → (⟨S512x300, .f32⟩ : BufTy).Contents (Elt F)),
    unary main_arg6 main_v21 ((transpose S300x1 [1, 0] · transposes_S1x300_S300x1_1_0) : (⟨S1x300, .f32⟩ : BufTy).Contents (Elt F) → (⟨S300x1, .f32⟩ : BufTy).Contents (Elt F)),
    binary main_v20 main_v21 main_v22 ((fun l r => Host.dotGeneral dot_S512x300_S300x1_S512x1_1_0_0_1_n_n none l r) : (⟨S512x300, .f32⟩ : BufTy).Contents (Elt F) → (⟨S300x1, .f32⟩ : BufTy).Contents (Elt F) → (⟨S512x1, .f32⟩ : BufTy).Contents (Elt F)),
    unary main_arg7 main_v23 (broadcastInDim S1x1 ![1] bcast_S1_S1x1_1 : (⟨S1, .f32⟩ : BufTy).Contents (Elt F) → (⟨S1x1, .f32⟩ : BufTy).Contents (Elt F)),
    unary main_v23 main_v24 (broadcastInDim S512x1 ![0, 1] bcast_S1x1_S512x1_0_1 : (⟨S1x1, .f32⟩ : BufTy).Contents (Elt F) → (⟨S512x1, .f32⟩ : BufTy).Contents (Elt F)),
    binary main_v22 main_v24 main_v25 (addf : (⟨S512x1, .f32⟩ : BufTy).Contents (Elt F) → (⟨S512x1, .f32⟩ : BufTy).Contents (Elt F) → (⟨S512x1, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., binary_bufs_sub .., binary_bufs_sub .., unary_bufs_sub .., unary_bufs_sub .., binary_bufs_sub .., nullary_bufs_sub .., unary_bufs_sub .., binary_bufs_sub .., nullary_bufs_sub .., binary_bufs_sub .., binary_bufs_sub .., binary_bufs_sub .., binary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxHeartbeats 2000000 in
/-- Every weakly fair execution of the reference terminates with the result buffer at `score` of the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = score (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v25).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.ReadBack

end
-- ==== Proof.ReferenceValue.lean ====
/-
  The reference's value, index by index: `score` of the eight arguments is the specification `G` of them.

  Read from the result inwards. The last product and bias give the sum over the 300 hidden units plus the output bias.
  A hidden unit is `tanh` of the 600 features against a row of the first weight (read through its transpose) plus
  its bias; the sum over 600 splits into the 300 differences against the left half of the row and the 300 products
  against the right half (`sum_fin600`), because the feature array is the differences and the products side by side.
  An encoding entry is the fold of `max` over the 128 words of the rectified word score, the word score being the
  contraction of the word against a row of the convolution weight plus the bias.
-/
import proofs.«173753_j30846455120276_2_alg».proof.Proof.Spec
import proofs.«173753_j30846455120276_2_alg».proof.Proof.ReferenceRun
import Idealize.ShloMosaic.Lib.Pipeline.Value
import Idealize.ShloMosaic.Lib.ValueIdx
import Idealize.ShloMosaic.PureOps.Ideal.Laws

noncomputable section

namespace Cert.ReferenceIdeal.SameFunction

open Cert.ReferenceIdeal Cert.ReferenceIdeal.Gen Cert.ReferenceIdeal.ReadBack Idealize.ShloMosaic Idealize.ShloMosaic.ValueIdx Cert.PairScore

/-- The word scores: the contraction of word (r, p) against row o of the convolution weight. -/
theorem wordScores_apply (l : FVec Ideal S512x128x337 .f32) (w : FVec Ideal S300x337 .f32) (r : Fin 512) (p : Fin 128) (o : Fin 300) :
    Host.dotGeneral dot_S512x128x337_S300x337_S512x128x300_2_1_01_0_n_n none l w (ix3 r p o) = ∑ d : Fin 337, l (ix3 r p d) * w (ix2 o d) := by
  simp only [Host.dotGeneral]
  rw [Ideal.dotGeneral_apply, ← Equiv.sum_comp (contrEquiv1 dot_S512x128x337_S300x337_S512x128x300_2_1_01_0_n_n 337 rfl rfl).symm]
  refine Finset.sum_congr rfl fun k _ => ?_
  have hk := contrEquiv1_symm_val dot_S512x128x337_S300x337_S512x128x300_2_1_01_0_n_n 337 rfl rfl k
  have el : dot_S512x128x337_S300x337_S512x128x300_2_1_01_0_n_n.lhsIdx (ix3 r p o) ((contrEquiv1 dot_S512x128x337_S300x337_S512x128x300_2_1_01_0_n_n 337 rfl rfl).symm k) = ix3 r p k := funext fun a => Fin.ext (by
    match a with
    | ⟨0, _⟩ =>
      show (dot_S512x128x337_S300x337_S512x128x300_2_1_01_0_n_n.lhsIdx (ix3 r p o) _ 0).val = r.val
      unfold DotDims.lhsIdx
      rw [dif_neg (show ¬(0 : Fin S512x128x337.rank) ∈ dot_S512x128x337_S300x337_S512x128x300_2_1_01_0_n_n.lhsBatch by decide), dif_pos (show (0 : Fin S512x128x337.rank) ∈ dot_S512x128x337_S300x337_S512x128x300_2_1_01_0_n_n.lhsNonContracting by decide)]
      rfl
    | ⟨1, _⟩ =>
      show (dot_S512x128x337_S300x337_S512x128x300_2_1_01_0_n_n.lhsIdx (ix3 r p o) _ 1).val = p.val
      unfold DotDims.lhsIdx
      rw [dif_neg (show ¬(1 : Fin S512x128x337.rank) ∈ dot_S512x128x337_S300x337_S512x128x300_2_1_01_0_n_n.lhsBatch by decide), dif_pos (show (1 : Fin S512x128x337.rank) ∈ dot_S512x128x337_S300x337_S512x128x300_2_1_01_0_n_n.lhsNonContracting by decide)]
      rfl
    | ⟨2, _⟩ => exact (dot_S512x128x337_S300x337_S512x128x300_2_1_01_0_n_n.lhsIdx_val_of_single rfl (ix3 r p o) _).trans hk)
  have er : dot_S512x128x337_S300x337_S512x128x300_2_1_01_0_n_n.rhsIdx (ix3 r p o) ((contrEquiv1 dot_S512x128x337_S300x337_S512x128x300_2_1_01_0_n_n 337 rfl rfl).symm k) = ix2 o k := funext fun a => Fin.ext (by
    match a with
    | ⟨0, _⟩ =>
      show (dot_S512x128x337_S300x337_S512x128x300_2_1_01_0_n_n.rhsIdx (ix3 r p o) _ 0).val = o.val
      unfold DotDims.rhsIdx
      rw [dif_neg (show ¬(0 : Fin S300x337.rank) ∈ dot_S512x128x337_S300x337_S512x128x300_2_1_01_0_n_n.rhsBatch by decide), dif_pos (show (0 : Fin S300x337.rank) ∈ dot_S512x128x337_S300x337_S512x128x300_2_1_01_0_n_n.rhsNonContracting by decide)]
      rfl
    | ⟨1, _⟩ => exact (dot_S512x128x337_S300x337_S512x128x300_2_1_01_0_n_n.rhsIdx_val_of_single rfl (ix3 r p o) _).trans hk)
  rw [el, er]

/-- The first-layer product: a row's 600 features against a column of the transposed first weight. -/
theorem features_apply (l : FVec Ideal S512x600 .f32) (r : FVec Ideal S600x300 .f32) (i : Fin 512) (j : Fin 300) :
    Host.dotGeneral dot_S512x600_S600x300_S512x300_1_0_0_1_n_n none l r (ix2 i j) = ∑ k : Fin 600, l (ix2 i k) * r (ix2 k j) := by
  simp only [Host.dotGeneral]
  rw [Ideal.dotGeneral_apply, ← Equiv.sum_comp (contrEquiv1 dot_S512x600_S600x300_S512x300_1_0_0_1_n_n 600 rfl rfl).symm]
  refine Finset.sum_congr rfl fun k _ => ?_
  have hk := contrEquiv1_symm_val dot_S512x600_S600x300_S512x300_1_0_0_1_n_n 600 rfl rfl k
  have el : dot_S512x600_S600x300_S512x300_1_0_0_1_n_n.lhsIdx (ix2 i j) ((contrEquiv1 dot_S512x600_S600x300_S512x300_1_0_0_1_n_n 600 rfl rfl).symm k) = ix2 i k := funext fun a => Fin.ext (by
    match a with
    | ⟨0, _⟩ =>
      show (dot_S512x600_S600x300_S512x300_1_0_0_1_n_n.lhsIdx (ix2 i j) _ 0).val = i.val
      unfold DotDims.lhsIdx
      rw [dif_neg (show ¬(0 : Fin S512x600.rank) ∈ dot_S512x600_S600x300_S512x300_1_0_0_1_n_n.lhsBatch by decide), dif_pos (show (0 : Fin S512x600.rank) ∈ dot_S512x600_S600x300_S512x300_1_0_0_1_n_n.lhsNonContracting by decide)]
      rfl
    | ⟨1, _⟩ => exact (dot_S512x600_S600x300_S512x300_1_0_0_1_n_n.lhsIdx_val_of_single rfl (ix2 i j) _).trans hk)
  have er : dot_S512x600_S600x300_S512x300_1_0_0_1_n_n.rhsIdx (ix2 i j) ((contrEquiv1 dot_S512x600_S600x300_S512x300_1_0_0_1_n_n 600 rfl rfl).symm k) = ix2 k j := funext fun a => Fin.ext (by
    match a with
    | ⟨0, _⟩ => exact (dot_S512x600_S600x300_S512x300_1_0_0_1_n_n.rhsIdx_val_of_single rfl (ix2 i j) _).trans hk
    | ⟨1, _⟩ =>
      show (dot_S512x600_S600x300_S512x300_1_0_0_1_n_n.rhsIdx (ix2 i j) _ 1).val = j.val
      unfold DotDims.rhsIdx
      rw [dif_neg (show ¬(1 : Fin S600x300.rank) ∈ dot_S512x600_S600x300_S512x300_1_0_0_1_n_n.rhsBatch by decide), dif_pos (show (1 : Fin S600x300.rank) ∈ dot_S512x600_S600x300_S512x300_1_0_0_1_n_n.rhsNonContracting by decide)]
      rfl)
  rw [el, er]

/-- The second-layer product: a row's 300 hidden units against the transposed second weight. -/
theorem hiddenUnits_apply (l : FVec Ideal S512x300 .f32) (r : FVec Ideal S300x1 .f32) (i : Fin 512) (j : Fin 1) :
    Host.dotGeneral dot_S512x300_S300x1_S512x1_1_0_0_1_n_n none l r (ix2 i j) = ∑ k : Fin 300, l (ix2 i k) * r (ix2 k j) := by
  simp only [Host.dotGeneral]
  rw [Ideal.dotGeneral_apply, ← Equiv.sum_comp (contrEquiv1 dot_S512x300_S300x1_S512x1_1_0_0_1_n_n 300 rfl rfl).symm]
  refine Finset.sum_congr rfl fun k _ => ?_
  have hk := contrEquiv1_symm_val dot_S512x300_S300x1_S512x1_1_0_0_1_n_n 300 rfl rfl k
  have el : dot_S512x300_S300x1_S512x1_1_0_0_1_n_n.lhsIdx (ix2 i j) ((contrEquiv1 dot_S512x300_S300x1_S512x1_1_0_0_1_n_n 300 rfl rfl).symm k) = ix2 i k := funext fun a => Fin.ext (by
    match a with
    | ⟨0, _⟩ =>
      show (dot_S512x300_S300x1_S512x1_1_0_0_1_n_n.lhsIdx (ix2 i j) _ 0).val = i.val
      unfold DotDims.lhsIdx
      rw [dif_neg (show ¬(0 : Fin S512x300.rank) ∈ dot_S512x300_S300x1_S512x1_1_0_0_1_n_n.lhsBatch by decide), dif_pos (show (0 : Fin S512x300.rank) ∈ dot_S512x300_S300x1_S512x1_1_0_0_1_n_n.lhsNonContracting by decide)]
      rfl
    | ⟨1, _⟩ => exact (dot_S512x300_S300x1_S512x1_1_0_0_1_n_n.lhsIdx_val_of_single rfl (ix2 i j) _).trans hk)
  have er : dot_S512x300_S300x1_S512x1_1_0_0_1_n_n.rhsIdx (ix2 i j) ((contrEquiv1 dot_S512x300_S300x1_S512x1_1_0_0_1_n_n 300 rfl rfl).symm k) = ix2 k j := funext fun a => Fin.ext (by
    match a with
    | ⟨0, _⟩ => exact (dot_S512x300_S300x1_S512x1_1_0_0_1_n_n.rhsIdx_val_of_single rfl (ix2 i j) _).trans hk
    | ⟨1, _⟩ =>
      show (dot_S512x300_S300x1_S512x1_1_0_0_1_n_n.rhsIdx (ix2 i j) _ 1).val = j.val
      unfold DotDims.rhsIdx
      rw [dif_neg (show ¬(1 : Fin S300x1.rank) ∈ dot_S512x300_S300x1_S512x1_1_0_0_1_n_n.rhsBatch by decide), dif_pos (show (1 : Fin S300x1.rank) ∈ dot_S512x300_S300x1_S512x1_1_0_0_1_n_n.rhsNonContracting by decide)]
      rfl)
  rw [el, er]

/-- The convolution bias, broadcast over rows and words, reads the bias of the output feature. -/
theorem convBias_apply (cb : FVec Ideal S300 .f32) (r : Fin 512) (p : Fin 128) (o : Fin 300) :
    broadcastInDim S512x128x300 ![0, 1, 2] bcast_S1x1x300_S512x128x300_0_1_2 (broadcastInDim S1x1x300 ![2] bcast_S300_S1x1x300_2 cb) (ix3 r p o)
      = cb (ix1 o) := by
  refine (broadcastInDim_apply _ bcast_S1x1x300_S512x128x300_0_1_2 _ (ix3 r p o) (ix3 (0 : Fin 1) (0 : Fin 1) o) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show o.val = if (300 : Nat) = 1 then 0 else o.val; rw [if_neg (by decide)])).trans ?_
  exact broadcastInDim_apply _ bcast_S300_S1x1x300_2 cb _ (ix1 o) (fun a => match a with
    | ⟨0, _⟩ => by show o.val = if (300 : Nat) = 1 then 0 else o.val; rw [if_neg (by decide)])

/-- An encoding entry: the largest rectified word score over the row's 128 words. -/
theorem encode_apply (x : FVec Ideal S512x128x337 .f32) (cw : FVec Ideal S300x337 .f32) (cb : FVec Ideal S300 .f32) (r : Fin 512) (o : Fin 300) :
    encode x cw cb (ix2 r o) = pooled (fun p d => x (ix3 r p d)) (fun o d => cw (ix2 o d)) (fun o => cb (ix1 o)) o := by
  unfold encode
  have h : S512x128x300.Reduces [1] S512x300 := by decide
  refine (Host.reduce_eq_fold_single FloatOps.maximumf _ _ reducesTo_S512x128x300_S512x300_d1 h h_S_ (ix2 r o)).trans ?_
  have e : ∀ p : Fin 128, h.lift (ix2 r o) p = ix3 r p o := fun p => funext fun c => Fin.ext (by
    match c with
    | ⟨0, _⟩ => rfl
    | ⟨1, _⟩ => rfl
    | ⟨2, _⟩ => rfl)
  unfold pooled
  show Finset.fold max negInfW (fun p : Fin 128 => _) Finset.univ = _
  refine congrArg (fun f => Finset.fold max negInfW f Finset.univ) (funext fun p => ?_)
  show maximumf _ _ (h.lift (ix2 r o) p) = _
  rw [e p, maximumf_apply, addf_apply, wordScores_apply, convBias_apply]
  rfl

/-- The left 300 features of a row are the first array's. -/
theorem joinFeatures_left (a b : FVec Ideal S512x300 .f32) (r : Fin 512) (q : Fin 300) :
    joinFeatures a b (ix2 r (⟨q.val, by omega⟩ : Fin 600)) = a (ix2 r q) := by
  unfold joinFeatures
  exact concatenate_pair_apply_left (1 : Fin S512x600.rank) a b concatenates_S512x300_S512x300_S512x600_d1 _ rfl (ix2 r q)
    (fun c => match c with | ⟨0, _⟩ => rfl | ⟨1, _⟩ => rfl)

/-- The right 300 features of a row are the second array's. -/
theorem joinFeatures_right (a b : FVec Ideal S512x300 .f32) (r : Fin 512) (q : Fin 300) :
    joinFeatures a b (ix2 r (⟨300 + q.val, by omega⟩ : Fin 600)) = b (ix2 r q) := by
  unfold joinFeatures
  exact concatenate_pair_apply_right (1 : Fin S512x600.rank) a b concatenates_S512x300_S512x300_S512x600_d1 _ rfl rfl (ix2 r q)
    (fun c hc => match c, hc with | ⟨0, _⟩, _ => rfl | ⟨1, _⟩, hc => absurd rfl hc)
    (by show q.val + 300 = 300 + q.val; omega)

/-- The transposed first weight at (feature, unit) is the first weight at (unit, feature). -/
theorem firstWeightT_eq (f1w : FVec Ideal S300x600 .f32) :
    transpose S600x300 [1, 0] f1w transposes_S300x600_S600x300_1_0 = fun i => f1w (ix2 (i 1) (i 0)) :=
  funext fun i => transpose_apply [1, 0] f1w transposes_S300x600_S600x300_1_0 i (ix2 (i 1) (i 0))
    (fun c => match c with | ⟨0, _⟩ => rfl | ⟨1, _⟩ => rfl)

/-- The transposed second weight at (unit, 0) is the second weight at (0, unit). -/
theorem secondWeightT_eq (f2w : FVec Ideal S1x300 .f32) :
    transpose S300x1 [1, 0] f2w transposes_S1x300_S300x1_1_0 = fun i => f2w (ix2 (i 1) (i 0)) :=
  funext fun i => transpose_apply [1, 0] f2w transposes_S1x300_S300x1_1_0 i (ix2 (i 1) (i 0))
    (fun c => match c with | ⟨0, _⟩ => rfl | ⟨1, _⟩ => rfl)

/-- The first bias, broadcast down the rows, reads the bias of the hidden unit. -/
theorem firstBias_apply (f1b : FVec Ideal S300 .f32) (r : Fin 512) (k : Fin 300) :
    broadcastInDim S512x300 ![0, 1] bcast_S1x300_S512x300_0_1 (broadcastInDim S1x300 ![1] bcast_S300_S1x300_1 f1b) (ix2 r k)
      = f1b (ix1 k) := by
  refine (broadcastInDim_apply _ bcast_S1x300_S512x300_0_1 _ (ix2 r k) (ix2 (0 : Fin 1) k) (fun a => match a with
    | ⟨0, _⟩ => by show 0 = if (1 : Nat) = 1 then 0 else _; rw [if_pos rfl]
    | ⟨1, _⟩ => by show k.val = if (300 : Nat) = 1 then 0 else k.val; rw [if_neg (by decide)])).trans ?_
  exact broadcastInDim_apply _ bcast_S300_S1x300_1 f1b _ (ix1 k) (fun a => match a with
    | ⟨0, _⟩ => by show k.val = if (300 : Nat) = 1 then 0 else k.val; rw [if_neg (by decide)])

/-- The output bias, broadcast down the rows, reads its one entry. -/
theorem outBias_apply (f2b : FVec Ideal S1 .f32) (r : Fin 512) (s : Fin 1) :
    broadcastInDim S512x1 ![0, 1] bcast_S1x1_S512x1_0_1 (broadcastInDim S1x1 ![1] bcast_S1_S1x1_1 f2b) (ix2 r s)
      = f2b (ix1 (0 : Fin 1)) := by
  refine (broadcastInDim_apply _ bcast_S1x1_S512x1_0_1 _ (ix2 r s) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])).trans ?_
  exact broadcastInDim_apply _ bcast_S1_S1x1_1 f2b _ (ix1 (0 : Fin 1)) (fun a => match a with
    | ⟨0, _⟩ => by show 0 = if (1 : Nat) = 1 then 0 else _; rw [if_pos rfl])

/-- A hidden unit of a row: `tanh` of the specification's `hidden`, the sum over the 600 features split into its halves. -/
theorem hiddenLayer_apply (u v : FVec Ideal S512x300 .f32) (f1w : FVec Ideal S300x600 .f32) (f1b : FVec Ideal S300 .f32)
    (r : Fin 512) (k : Fin 300) :
    hiddenLayer u v f1w f1b (ix2 r k)
      = Ideal.tanh (PairScore.hidden (fun q => u (ix2 r q)) (fun q => v (ix2 r q)) (fun k q => f1w (ix2 k (⟨q.val, by omega⟩ : Fin 600)))
          (fun k q => f1w (ix2 k (⟨300 + q.val, by omega⟩ : Fin 600))) (fun k => f1b (ix1 k)) k) := by
  unfold hiddenLayer PairScore.hidden
  show FloatOps.hostUnary .tanh (addf _ _ (ix2 r k)) = _
  rw [Ideal.hostUnary_tanh_def, addf_apply, features_apply, firstBias_apply, sum_fin600, firstWeightT_eq]
  simp only [joinFeatures_left, joinFeatures_right, subf_apply, mulf_apply]

/-- The reference's result is the specification `G` of its eight arguments. -/
theorem score_eq_G (x0 x1 : FVec Ideal S512x128x337 .f32) (cw : FVec Ideal S300x337 .f32) (cb : FVec Ideal S300 .f32)
    (f1w : FVec Ideal S300x600 .f32) (f1b : FVec Ideal S300 .f32) (f2w : FVec Ideal S1x300 .f32) (f2b : FVec Ideal S1 .f32) :
    score x0 x1 cw cb f1w f1b f2w f2b = G x0 x1 cw cb f1w f1b f2w f2b := by
  funext i
  obtain ⟨r, s, rfl⟩ : ∃ (r : Fin 512) (s : Fin 1), i = ix2 r s := ⟨i 0, i 1, eq_ix2 i⟩
  unfold ReadBack.score G PairScore.score
  rw [addf_apply, hiddenUnits_apply, outBias_apply, secondWeightT_eq]
  simp only [hiddenLayer_apply, encode_apply]
  have hs : s = 0 := Subsingleton.elim _ _
  subst hs
  rfl

end Cert.ReferenceIdeal.SameFunction

end
-- ==== Proof.lean ====
/-
  The certificate: a sentence-pair scorer computed by a tiled kernel equals its plain array reference, on the extended reals.

  Both programs map two sentence arrays [512, 128, 337] and the parameters of a word convolution and of a two-layer
  perceptron to one score per row, [512, 1]: each sentence is encoded by the largest rectified affine word score per
  output feature, and the score is the perceptron of the encodings' differences and products (Proof/Spec.lean states
  this function `G` once).

  * The kernel works on 32 rows per grid point, in four chunks of 8 rows, receives the weights transposed and the first
    weight cut into its two halves, and adds the two half products; Proof/Encode.lean, Proof/Body.lean and
    Proof/KernelValue.lean read its result array as `G` of the arguments.
  * The reference contracts whole arrays and joins the 600 features before one product; Proof/ReferenceRun.lean and
    Proof/ReferenceValue.lean read its result as the same `G`.

  The two agree because a sum over 600 features is the sum over its two halves; no finiteness of the inputs is used.
  The three frames are the programs' runs with the values forgotten; the idealized kernel is the kernel's own text read
  on the extended reals, so nothing is owed for the idealization.
-/
import proofs.«173753_j30846455120276_2_alg».proof.Defs
import proofs.«173753_j30846455120276_2_alg».proof.Proof.Gen.Kernel
import proofs.«173753_j30846455120276_2_alg».proof.Proof.Gen.Kernel.Skeleton
import proofs.«173753_j30846455120276_2_alg».proof.Proof.Gen.Kernel.Launch
import proofs.«173753_j30846455120276_2_alg».proof.Proof.Gen.Kernel.Points
import proofs.«173753_j30846455120276_2_alg».proof.Proof.Gen.Kernel.Frame
import proofs.«173753_j30846455120276_2_alg».proof.Proof.Gen.KernelIdeal
import proofs.«173753_j30846455120276_2_alg».proof.Proof.Gen.KernelIdeal.Skeleton
import proofs.«173753_j30846455120276_2_alg».proof.Proof.Gen.KernelIdeal.Launch
import proofs.«173753_j30846455120276_2_alg».proof.Proof.Gen.KernelIdeal.Points
import proofs.«173753_j30846455120276_2_alg».proof.Proof.Gen.KernelIdeal.Frame
import proofs.«173753_j30846455120276_2_alg».proof.Proof.Gen.KernelIdeal.Value
import proofs.«173753_j30846455120276_2_alg».proof.Proof.Gen.ReferenceIdeal
import proofs.«173753_j30846455120276_2_alg».proof.Proof.Gen.Pre_finite_inputs
import proofs.«173753_j30846455120276_2_alg».proof.Proof.KernelValue
import proofs.«173753_j30846455120276_2_alg».proof.Proof.ReferenceValue
import Idealize.ShloMosaic.Adequacy
import Idealize.ShloMosaic.Init

noncomputable section

namespace Cert.Proof

open Idealize.ShloMosaic Idealize.ShloMosaic.TcCoe Idealize.SL.Sem Cert.Kernel

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.ReadBack.run (F := Ideal) m ρ)

/-- The idealization rewrote no operation. -/
theorem preserves : Cert.preserves_Kernel_KernelIdeal := trivial

/-- From memories that agree on the eight arguments both programs end with the result array at `G` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.ReadBack.run (F := Ideal) m' ρ')
  obtain ⟨a0, a1, a2, a3, a4, a5, a6, a7⟩ := hagree c
  rw [Cert.ReferenceIdeal.SameFunction.score_eq_G, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
